-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S128 : Shape := ⟨1, ![128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S8192x128 .f32) (main_arg1 : IVec S8192 32) (main_arg2 : FVec F S128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128 .f32 := Host.absf main_arg2
  let main_cst_0 : FVec F S_ .f32 := constant S_ .f32 0x7F800000#32
  let main_v5 : FVec F S128 .f32 := broadcastInDim S128 ![] bcast_S_S128 main_cst_0
  let main_v6 : IVec S128 1 := cmpf .olt main_v4 main_v5
  let main_c_1 : IVec S_ 1 := constantI S_ 1 1#1
  let main_v7 : IVec S_ 1 := (fun x v => Host.reduce IntOp.andi x v reducesTo_S128_S_d0 h_S_) main_v6 main_c_1
  let main_v8 : IVec S_ 1 := andi main_v3 main_v7
  main_v8
-- ==== Kernel.lean ====
abbrev S8192x128 : Shape := ⟨2, ![8192, 128]⟩
abbrev S8192 : Shape := ⟨1, ![8192]⟩
abbrev S128 : Shape := ⟨1, ![128]⟩
abbrev S_ : Shape := ⟨0, ![]⟩
abbrev S8192x1 : Shape := ⟨2, ![8192, 1]⟩
abbrev S1x128 : Shape := ⟨2, ![1, 128]⟩
abbrev S8192x256 : Shape := ⟨2, ![8192, 256]⟩
abbrev S32x128 : Shape := ⟨2, ![32, 128]⟩
abbrev S2048x256 : Shape := ⟨2, ![2048, 256]⟩
abbrev S1024x256 : Shape := ⟨2, ![1024, 256]⟩
abbrev S2048x1 : Shape := ⟨2, ![2048, 1]⟩
abbrev S8x128 : Shape := ⟨2, ![8, 128]⟩
abbrev S1x1 : Shape := ⟨2, ![1, 1]⟩
abbrev S2048x1024 : Shape := ⟨2, ![2048, 1024]⟩
abbrev S2048 : Shape := ⟨1, ![2048]⟩
abbrev S1 : Shape := ⟨1, ![1]⟩
abbrev S1x127 : Shape := ⟨2, ![1, 127]⟩
abbrev S7x128 : Shape := ⟨2, ![7, 128]⟩

abbrev nBuf : Space → Nat
  | .hbm => 58
  | .vmem => 9
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S128, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192x1, .f32⟩
  | .hbm, ⟨9, _⟩ => ⟨S8192x128, .f32⟩
  | .hbm, ⟨10, _⟩ => ⟨S8192x128, .f32⟩
  | .hbm, ⟨11, _⟩ => ⟨S8192x128, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x1, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x1, .i32⟩
  | .hbm, ⟨20, _⟩ => ⟨S1x128, .i32⟩
  | .hbm, ⟨21, _⟩ => ⟨S8192x128, .i32⟩
  | .hbm, ⟨22, _⟩ => ⟨S8192x128, .i32⟩
  | .hbm, ⟨23, _⟩ => ⟨S8192x128, .i1⟩
  | .hbm, ⟨24, _⟩ => ⟨S8192x128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192x128, .f32⟩
  | .hbm, ⟨29, _⟩ => ⟨S8192x128, .f32⟩
  | .hbm, ⟨30, _⟩ => ⟨S_, .f32⟩
  | .hbm, ⟨31, _⟩ => ⟨S8192x128, .f32⟩
  | .hbm, ⟨32, _⟩ => ⟨S8192x128, .f32⟩
  | .hbm, ⟨33, _⟩ => ⟨S1x128, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x128, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1, .f32⟩
  | .hbm, ⟨46, _⟩ => ⟨S8192x256, .f32⟩
  | .hbm, ⟨47, _⟩ => ⟨S8192x256, .bf16⟩
  | .hbm, ⟨48, _⟩ => ⟨S8192x128, .f32⟩
  | .hbm, ⟨49, _⟩ => ⟨S8192x256, .f32⟩
  | .hbm, ⟨50, _⟩ => ⟨S8192x256, .bf16⟩
  | .hbm, ⟨51, _⟩ => ⟨S32x128, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S2048x256, .bf16⟩
  | .local _ .vmem, ⟨1, _⟩ => ⟨S2048x256, .bf16⟩
  | .local _ .vmem, ⟨2, _⟩ => ⟨S1024x256, .bf16⟩
  | .local _ .vmem, ⟨3, _⟩ => ⟨S1024x256, .bf16⟩
  | .local _ .vmem, ⟨4, _⟩ => ⟨S2048x1, .f32⟩
  | .local _ .vmem, ⟨5, _⟩ => ⟨S2048x1, .f32⟩
  | .local _ .vmem, ⟨6, _⟩ => ⟨S8x128, .f32⟩
  | .local _ .vmem, ⟨7, _⟩ => ⟨S8x128, .f32⟩
  | .local _ .vmem, ⟨8, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v2 : Ref sig .tc := ⟨.hbm, 24, rfl⟩
abbrev main_cst : Ref sig .tc := ⟨.hbm, 25, rfl⟩
abbrev main_cst_0 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_cst_2 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_3 : Ref sig .tc := ⟨.hbm, 52, rfl⟩
abbrev main_v21 : Ref sig .tc := ⟨.hbm, 53, rfl⟩
abbrev main_cst_4 : Ref sig .tc := ⟨.hbm, 54, rfl⟩
abbrev main_v22 : Ref sig .tc := ⟨.hbm, 55, rfl⟩
abbrev main_cst_5 : Ref sig .tc := ⟨.hbm, 56, rfl⟩
abbrev main_v23 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S8192x128_S8192_d1 : S8192x128.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S128_S1x128_1 : S128.BroadcastsInDim S1x128 (![1] : Fin 1 → Fin S1x128.rank)
  concatenates_S8192x128_S8192x128_S8192x256_d1 : Shape.Concatenates [S8192x128, S8192x128] S8192x256 1
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x1024 : S2048x1.Broadcasts S2048x1024
  reduces_S2048x1024_S2048 : S2048x1024.Reduces [1] S2048
  shapeCasts_S2048_S2048x1 : S2048.ShapeCasts S2048x1
  reduces_S2048x1_S1 : S2048x1.Reduces [0] S1
  shapeCasts_S1_S1x1 : S1.ShapeCasts S1x1
  concatenates_S1x1_S1x127_S1x128_d1 : Shape.Concatenates [S1x1, S1x127] S1x128 1
  concatenates_S1x128_S7x128_S8x128_d0 : Shape.Concatenates [S1x128, S7x128] S8x128 0
  inb_S8x128_S8x128_0_0 : ∀ a, (![0, 0] : Fin 2 → Nat) a + S8x128.size a ≤ S8x128.size a
  h_S8x128 : 0 < S8x128.numel
  reducesTo_S32x128_S_d0_1 : S32x128.ReducesTo [0, 1] S_
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .bf16 = 32 ∨ (Rect.block (s := S8192x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S32x128.size a
  hwx0_3 : ∀ i : grid0.Coords, EltTy.bits .f32 = 32 ∨ (Rect.block (s := S32x128) S8x128.size (cc0_transform_3 i) (hinb0_3 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_v16) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S128 : Shape := ⟨1, ![128]⟩
abbrev S8192x1 : Shape := ⟨2, ![8192, 1]⟩
abbrev S1x128 : Shape := ⟨2, ![1, 128]⟩
abbrev S_ : Shape := ⟨0, ![]⟩
abbrev S128x8192 : Shape := ⟨2, ![128, 8192]⟩
abbrev S8192x8192 : Shape := ⟨2, ![8192, 8192]⟩

abbrev nBuf : Space → Nat
  | .hbm => 61
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S128, .f32⟩
  | .hbm, ⟨3, _⟩ => ⟨S8192x1, .i32⟩
  | .hbm, ⟨4, _⟩ => ⟨S1x128, .i32⟩
  | .hbm, ⟨5, _⟩ => ⟨S8192x128, .i32⟩
  | .hbm, ⟨6, _⟩ => ⟨S8192x128, .i32⟩
  | .hbm, ⟨7, _⟩ => ⟨S8192x128, .i1⟩
  | .hbm, ⟨8, _⟩ => ⟨S8192x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S_, .f32⟩
  | .hbm, ⟨15, _⟩ => ⟨S8192x128, .f32⟩
  | .hbm, ⟨16, _⟩ => ⟨S8192x128, .f32⟩
  | .hbm, ⟨17, _⟩ => ⟨S1x128, .f32⟩
  | .hbm, ⟨18, _⟩ => ⟨S8192x128, .f32⟩
  | .hbm, ⟨19, _⟩ => ⟨S8192x128, .f32⟩
  | .hbm, ⟨20, _⟩ => ⟨S_, .f32⟩
  | .hbm, ⟨21, _⟩ => ⟨S8192, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S8192x1, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x1, .f32⟩
  | .hbm, ⟨33, _⟩ => ⟨S8192x128, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S8192x128, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S128x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S8192x128, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S128x8192, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S8192x8192, .f32⟩
  | .hbm, ⟨54, _⟩ => ⟨S8192x8192, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_cst : Ref sig .tc := ⟨.hbm, 9, rfl⟩
abbrev main_cst_0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call2_cst : Ref sig .tc := ⟨.hbm, 20, rfl⟩
abbrev main_call2_v0 : Ref sig .tc := ⟨.hbm, 21, rfl⟩
abbrev main_call2_cst_0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_v5 : Ref sig .tc := ⟨.hbm, 27, rfl⟩
abbrev main_call2_v6 : Ref sig .tc := ⟨.hbm, 28, rfl⟩
abbrev main_call2_cst_1 : Ref sig .tc := ⟨.hbm, 29, rfl⟩
abbrev main_call2_v7 : Ref sig .tc := ⟨.hbm, 30, rfl⟩
abbrev main_call2_v8 : Ref sig .tc := ⟨.hbm, 31, rfl⟩
abbrev main_call2_v9 : Ref sig .tc := ⟨.hbm, 32, rfl⟩
abbrev main_call2_v10 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_2 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_3 : Ref sig .tc := ⟨.hbm, 55, rfl⟩
abbrev main_v24 : Ref sig .tc := ⟨.hbm, 56, rfl⟩
abbrev main_cst_4 : Ref sig .tc := ⟨.hbm, 57, rfl⟩
abbrev main_v25 : Ref sig .tc := ⟨.hbm, 58, rfl⟩
abbrev main_cst_5 : Ref sig .tc := ⟨.hbm, 59, rfl⟩
abbrev main_v26 : Ref sig .tc := ⟨.hbm, 60, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S128_S1x128_1 : S128.BroadcastsInDim S1x128 (![1] : Fin 1 → Fin S1x128.rank)
  reducesTo_S8192x128_S8192_d1 : S8192x128.ReducesTo [1] S8192
  h_S_ : 0 < S_.numel
  bcast_S_S8192 : S_.BroadcastsInDim S8192 (![] : Fin 0 → Fin S8192.rank)
  transposes_S8192x128_S128x8192_1_0 : S8192x128.Transposes [1, 0] S128x8192
  bcast_S8192x1_S8192x8192_0_1 : S8192x1.BroadcastsInDim S8192x8192 (![0, 1] : Fin 2 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KerBody.lean ====
/-
  What one grid point leaves behind. The body keeps a 1 × 1 scratch accumulator across the eight column tiles of a
  row tile: at the first column tile it is reset to zero, at every column tile the tile's partial sum is added to it,
  and at the last column tile it is written into entry (0, 0) of an otherwise zero 8 × 128 output block. Read back
  from the stores each case makes: the scratch ends at `acc + partial` (`acc` the zero block in the first case, what
  the point before left otherwise), and the last case's output block is that value padded with zeros.
-/
import proofs.«144478_j53927609369071_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz2 : (![0, 0] : Fin 2 → Nat) = fun _ => 0 := funext fun a => by fin_cases a <;> rfl

/-- A middle column tile: the scratch, found at `xs0`, ends at the accumulate payload of the three input blocks and `xs0`. -/
theorem sout_B (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : ¬cond0_1 i)
    (x0 : Vec F S2048x256 .bf16) (x1 : Vec F S1024x256 .bf16) (x2 : Vec F S2048x1 .f32) (xs0 : Vec F S1x1 .f32) :
    sout0_B_0 c i arg2 harg2 arg3 harg3 arg4 harg4 arg5 harg5 arg6 harg6 hc0 hc1 x0 x1 x2 xs0 = k0_pay2 x0 x1 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  rw [View.canon_unit_zero hz2]
  simp only [View.readAt_eq_ld, harg2.read_unread, harg3.read_unread, harg4.read_unread, harg6.read_unread, View.ld_unit_zero (S := S2048x256) hz2, View.ld_unit_zero (S := S1024x256) hz2, View.ld_unit_zero (S := S2048x1) hz2, View.ld_unit_zero (S := S1x1) hz2]

/-- The first column tile: the scratch is zeroed, read back, and ends at the accumulate payload over the zero block. -/
theorem sout_A (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S8x128 .f32) (harg5 : arg5.IsWhole) (arg6 : Memref sig .tc .vmem S1x1 .f32) (harg6 : arg6.IsWhole) (hc0 : cond0_0 i) (hc1 : ¬cond0_1 i)
    (x0 : Vec F S2048x256 .bf16) (x1 : Vec F S1024x256 .bf16) (x2 : Vec F S2048x1 .f32) :
    sout0_A_0 c i arg2 harg2 arg3 harg3 arg4 harg4 arg5 harg5 arg6 harg6 hc0 hc1 x0 x1 x2 = k0_pay2 x0 x1 x2 (k0_pay1 (F := F)) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg6.read_unread, View.ld_unit_zero (S := S2048x256) hz2, View.ld_unit_zero (S := S1024x256) hz2, View.ld_unit_zero (S := S2048x1) hz2, View.ld_unit_zero (S := S1x1) hz2]

/-- The last column tile: the scratch ends as in a middle tile … -/
theorem sout_C (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 : Vec F S2048x256 .bf16) (x1 : Vec F S1024x256 .bf16) (x2 : Vec F S2048x1 .f32) (xs0 : Vec F S1x1 .f32) :
    sout0_C_0 c i arg2 harg2 arg3 harg3 arg4 harg4 arg5 harg5 arg6 harg6 hc0 hc1 x0 x1 x2 xs0 = k0_pay2 x0 x1 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz2]
  simp only [View.readAt_eq_ld, harg2.read_unread, harg3.read_unread, harg4.read_unread, harg6.read_unread, View.ld_unit_zero (S := S2048x256) hz2, View.ld_unit_zero (S := S1024x256) hz2, View.ld_unit_zero (S := S2048x1) hz2, View.ld_unit_zero (S := S1x1) hz2]

/-- … and the output block is the padding payload of that final scratch value. -/
theorem out_C (c : Dev nD) (i : grid0.Coords) (arg2 : Memref sig .tc .vmem S2048x256 .bf16) (harg2 : arg2.IsWhole) (arg3 : Memref sig .tc .vmem S1024x256 .bf16) (harg3 : arg3.IsWhole) (arg4 : Memref sig .tc .vmem S2048x1 .f32) (harg4 : arg4.IsWhole) (arg5 : Memref sig .tc .vmem S8x128 .f32) (harg5 : arg5.IsWhole) (arg6 : Memref sig .tc .vmem S1x1 .f32) (harg6 : arg6.IsWhole) (hc0 : ¬cond0_0 i) (hc1 : cond0_1 i)
    (x0 : Vec F S2048x256 .bf16) (x1 : Vec F S1024x256 .bf16) (x2 : Vec F S2048x1 .f32) (xs0 : Vec F S1x1 .f32) :
    out0_C_3 c i arg2 harg2 arg3 harg3 arg4 harg4 arg5 harg5 arg6 harg6 hc0 hc1 x0 x1 x2 xs0 = k0_pay3 (k0_pay2 x0 x1 x2 xs0) := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz2, View.readCov_unit_zero (S := S1x1) _ hz2]
  simp only [View.readAt_eq_ld, harg2.read_unread, harg3.read_unread, harg4.read_unread, harg6.read_unread, View.ld_unit_zero (S := S2048x256) hz2, View.ld_unit_zero (S := S1024x256) hz2, View.ld_unit_zero (S := S2048x1) hz2, View.ld_unit_zero (S := S1x1) hz2]

end Cert.KernelIdeal.Body

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.KerPay.lean ====
/-
  The body's arithmetic over the extended reals, read at an index.
  • The tile product: entry (r, c) of the 2048 × 1024 tile is the contraction Σ_{k < 256} x0(r, k) · x1(c, k) of row r
    of the row tile's operand with row c of the column tile's operand (both operands are contracted along their
    second axis; the accumulator is the zero tile).
  • The tile's partial sum: Σ_r Σ_c |x2(r, 0) − product(r, c)|, taken lanes first and rows second; the accumulate
    payload is the carried 1 × 1 value plus this partial sum.
  • The padding payload: the 1 × 1 value at (0, 0) of an 8 × 128 block, zero at every other entry, so that the
    block's entries sum to that value.
-/
import proofs.«144478_j53927609369071_2_alg».proof.Proof.Gen.KernelIdeal
import proofs.«144478_j53927609369071_2_alg».proof.Proof.Gen.KernelIdeal.Skeleton
import proofs.«144478_j53927609369071_2_alg».proof.Proof.LibColumns
import Idealize.ShloMosaic.Lib.ValueIdx
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.Columns

/-- The summand of a tile at (r, c): the absolute value of the row's column entry less the tile product. -/
def tileTerm (x0 : Vec Ideal S2048x256 .bf16) (x1 : Vec Ideal S1024x256 .bf16) (x2 : Vec Ideal S2048x1 .f32)
    (r : Fin 2048) (c : Fin 1024) : EReal :=
  max (x2 (ix2 r (0 : Fin 1)) - ∑ k : Fin 256, x0 (ix2 r k) * x1 (ix2 c k))
    (-(x2 (ix2 r (0 : Fin 1)) - ∑ k : Fin 256, x0 (ix2 r k) * x1 (ix2 c k)))

/-- A tile's partial sum. -/
def tilePartial (x0 : Vec Ideal S2048x256 .bf16) (x1 : Vec Ideal S1024x256 .bf16) (x2 : Vec Ideal S2048x1 .f32) : EReal :=
  ∑ r : Fin 2048, ∑ c : Fin 1024, tileTerm x0 x1 x2 r c

/-- The tile product at (r, c) is the contraction of row r of the left operand with row c of the right one. -/
theorem mm_apply (x0 : FVec Ideal S2048x256 .bf16) (x1 : FVec Ideal S1024x256 .bf16) (r : Fin 2048) (c : Fin 1024) :
    matmul (F := Ideal) dot_S2048x256_S1024x256_S2048x1024_1_1_0_0_n_n none x0 x1 (constant S2048x1024 .f32 0x00000000#32) (ix2 r c)
      = ∑ k : Fin 256, x0 (ix2 r k) * x1 (ix2 c k) := by
  simp only [matmul]
  rw [Ideal.matmul_constant_zero_apply, ← Equiv.sum_comp (ValueIdx.contrEquiv1 dot_S2048x256_S1024x256_S2048x1024_1_1_0_0_n_n 256 rfl rfl).symm]
  refine Finset.sum_congr rfl fun k _ => ?_
  have hk := ValueIdx.contrEquiv1_symm_val dot_S2048x256_S1024x256_S2048x1024_1_1_0_0_n_n 256 rfl rfl k
  have el : dot_S2048x256_S1024x256_S2048x1024_1_1_0_0_n_n.lhsIdx (ix2 r c) ((ValueIdx.contrEquiv1 dot_S2048x256_S1024x256_S2048x1024_1_1_0_0_n_n 256 rfl rfl).symm k) = ix2 r k := funext fun a => Fin.ext (by
    match a with
    | ⟨0, _⟩ =>
      show (dot_S2048x256_S1024x256_S2048x1024_1_1_0_0_n_n.lhsIdx (ix2 r c) _ 0).val = r.val
      unfold DotDims.lhsIdx
      rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
      rfl
    | ⟨1, _⟩ => exact (dot_S2048x256_S1024x256_S2048x1024_1_1_0_0_n_n.lhsIdx_val_of_single rfl _ _).trans hk)
  have er : dot_S2048x256_S1024x256_S2048x1024_1_1_0_0_n_n.rhsIdx (ix2 r c) ((ValueIdx.contrEquiv1 dot_S2048x256_S1024x256_S2048x1024_1_1_0_0_n_n 256 rfl rfl).symm k) = ix2 c k := funext fun a => Fin.ext (by
    match a with
    | ⟨0, _⟩ =>
      show (dot_S2048x256_S1024x256_S2048x1024_1_1_0_0_n_n.rhsIdx (ix2 r c) _ 0).val = c.val
      unfold DotDims.rhsIdx
      rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
      rfl
    | ⟨1, _⟩ => exact (dot_S2048x256_S1024x256_S2048x1024_1_1_0_0_n_n.rhsIdx_val_of_single rfl _ _).trans hk)
  rw [el, er]

/-- Entry `u` of the one-entry result with coordinate `k` put back on the reduced (first) axis of a column is `(k, u)`. -/
theorem lift_col {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

/-- THE ACCUMULATE PAYLOAD at its one index: the carried value plus the tile's partial sum (the lane sums first,
    then the sum of the column of lane sums). -/
theorem pay2_apply (x0 : Vec Ideal S2048x256 .bf16) (x1 : Vec Ideal S1024x256 .bf16) (x2 : Vec Ideal S2048x1 .f32)
    (xs : Vec Ideal S1x1 .f32) (y : S1x1.Idx) :
    k0_pay2 (F := Ideal) x0 x1 x2 xs y = xs y + tilePartial x0 x1 x2 := by
  obtain ⟨p, q, rfl⟩ : ∃ (p : Fin 1) (q : Fin 1), y = ix2 p q := ⟨y 0, y 1, eq_ix2 y⟩
  unfold k0_pay2
  simp only [shapeCast_self]
  show xs (ix2 p q) + _ = _
  refine congrArg (xs (ix2 p q) + ·) ?_
  refine (shapeCast_a_a1_apply _ _ p q).trans ?_
  refine (Ideal.multiReduction_add_single _ _ reduces_S2048x1_S1 _ _ (ix1 p)).trans ?_
  unfold tilePartial
  refine Finset.sum_congr rfl fun r _ => ?_
  refine (congrArg _ (lift_col reduces_S2048x1_S1 p r)).trans ?_
  refine (shapeCast_a_a1_apply _ _ (⟨r.val, r.isLt⟩ : Fin 2048) p).trans ?_
  refine (Ideal.multiReduction_add_single _ _ reduces_S2048x1024_S2048 _ _ (ix1 _)).trans ?_
  refine Finset.sum_congr rfl fun c _ => ?_
  refine (congrArg _ (lift_row reduces_S2048x1024_S2048 _ c)).trans ?_
  have e1 := broadcastTo_a1_ab_apply x2 broadcasts_S2048x1_S2048x1024 (⟨r.val, r.isLt⟩ : Fin 2048) (⟨c.val, c.isLt⟩ : Fin 1024)
  have e2 := mm_apply x0 x1 (⟨r.val, r.isLt⟩ : Fin 2048) (⟨c.val, c.isLt⟩ : Fin 1024)
  show max (broadcastTo S2048x1024 x2 _ (ix2 _ _) - matmul (F := Ideal) dot_S2048x256_S1024x256_S2048x1024_1_1_0_0_n_n none x0 x1 (constant S2048x1024 .f32 0x00000000#32) (ix2 _ _))
      (-(broadcastTo S2048x1024 x2 _ (ix2 _ _) - matmul (F := Ideal) dot_S2048x256_S1024x256_S2048x1024_1_1_0_0_n_n none x0 x1 (constant S2048x1024 .f32 0x00000000#32) (ix2 _ _))) = _
  rw [e1, e2]
  rfl

/-- The reset payload is the zero block. -/
theorem pay1_apply (y : S1x1.Idx) : k0_pay1 (F := Ideal) y = 0 := by
  unfold k0_pay1
  simp only [shapeCast_self]
  exact Ideal.ofBits_zero_f32

/-! ## The padding payload -/

/-- Its entry (0, 0) is the 1 × 1 value. -/
theorem pay3_00 (v : Vec Ideal S1x1 .f32) :
    k0_pay3 (F := Ideal) v (ix2 (0 : Fin 8) (0 : Fin 128)) = v (ix2 (0 : Fin 1) (0 : Fin 1)) := by
  unfold k0_pay3
  refine (concatenate_pair_apply_left (t := S8x128) (s₁ := S1x128) (s₂ := S7x128) (0 : Fin S8x128.rank) _ _ _ (ix2 (0 : Fin 8) (0 : Fin 128)) rfl (ix2 (0 : Fin 1) (0 : Fin 128))
    (fun b => by match b with | ⟨0, _⟩ => rfl | ⟨1, _⟩ => rfl)).trans ?_
  exact concatenate_pair_apply_left (t := S1x128) (s₁ := S1x1) (s₂ := S1x127) (1 : Fin S1x128.rank) _ _ _ (ix2 (0 : Fin 1) (0 : Fin 128)) rfl (ix2 (0 : Fin 1) (0 : Fin 1))
    (fun b => by match b with | ⟨0, _⟩ => rfl | ⟨1, _⟩ => rfl)

/-- Its first row is zero past the first lane. -/
theorem pay3_col (v : Vec Ideal S1x1 .f32) (l : Fin 127) :
    k0_pay3 (F := Ideal) v (ix2 (0 : Fin 8) (Fin.succ l)) = 0 := by
  unfold k0_pay3
  refine (concatenate_pair_apply_left (t := S8x128) (s₁ := S1x128) (s₂ := S7x128) (0 : Fin S8x128.rank) _ _ _ (ix2 (0 : Fin 8) (Fin.succ l)) rfl (ix2 (0 : Fin 1) (Fin.succ l))
    (fun b => by match b with | ⟨0, _⟩ => rfl | ⟨1, _⟩ => rfl)).trans ?_
  refine (concatenate_pair_apply_right (t := S1x128) (s₁ := S1x1) (s₂ := S1x127) (1 : Fin S1x128.rank) _ _ _ (ix2 (0 : Fin 1) (Fin.succ l)) rfl rfl (ix2 (0 : Fin 1) l)
    (fun b hb => by match b with | ⟨0, _⟩ => rfl | ⟨1, _⟩ => exact absurd rfl hb)
    (by show l.val + 1 = (Fin.succ l).val; rw [Fin.val_succ])).trans ?_
  exact Ideal.ofBits_zero_f32

/-- Its rows past the first are zero. -/
theorem pay3_row (v : Vec Ideal S1x1 .f32) (k : Fin 7) (l : Fin 128) :
    k0_pay3 (F := Ideal) v (ix2 (Fin.succ k) l) = 0 := by
  unfold k0_pay3
  refine (concatenate_pair_apply_right (t := S8x128) (s₁ := S1x128) (s₂ := S7x128) (0 : Fin S8x128.rank) _ _ _ (ix2 (Fin.succ k) l) rfl rfl (ix2 k l)
    (fun b hb => by match b with | ⟨0, _⟩ => exact absurd rfl hb | ⟨1, _⟩ => rfl)
    (by show k.val + 1 = (Fin.succ k).val; rw [Fin.val_succ])).trans ?_
  exact Ideal.ofBits_zero_f32

/-- So the padded block's entries sum to the 1 × 1 value. -/
theorem pay3_sum (v : Vec Ideal S1x1 .f32) :
    ∑ y : S8x128.Idx, k0_pay3 (F := Ideal) v y = v (ix2 (0 : Fin 1) (0 : Fin 1)) := by
  rw [sum_idx2 (n0 := 8) (n1 := 128), Fin.sum_univ_succ, Fin.sum_univ_succ (n := 127)]
  simp only [pay3_00, pay3_col, pay3_row, Finset.sum_const_zero, add_zero]

end Cert.KernelIdeal.Pay

end
-- ==== Proof.RunSum.lean ====
/-
  Running sums that restart at every multiple of 8. Along the grid, which visits the eight column tiles of a row
  tile one after the other, the accumulator is reset before the first column tile and a term is added at every
  tile; so at position 8·i + j (j < 8) it holds the sum of the terms at positions 8·i, …, 8·i + j, and at the last
  column tile of row tile i the sum of that row tile's eight terms.
-/
import Mathlib.Algebra.BigOperators.Fin
import Mathlib.Algebra.BigOperators.Intervals

namespace Cert.PairKL

variable {M : Type*} [AddCommMonoid M]

/-- The accumulator after position `n`: zero at a multiple of 8, else what it held, plus the term at `n`. -/
def runSum (f : ℕ → M) : ℕ → M
  | 0 => 0 + f 0
  | n + 1 => (if (n + 1) % 8 = 0 then 0 else runSum f n) + f (n + 1)

theorem runSum_succ (f : ℕ → M) (n : ℕ) :
    runSum f (n + 1) = (if (n + 1) % 8 = 0 then 0 else runSum f n) + f (n + 1) := rfl

/-- At position 8·i + j it is the sum of the terms from the start of row tile i. -/
theorem runSum_tile (f : ℕ → M) (i : ℕ) : ∀ j, j < 8 → runSum f (8 * i + j) = ∑ j' ∈ Finset.range (j + 1), f (8 * i + j') := by
  intro j
  induction j with
  | zero =>
    intro _
    rw [Finset.sum_range_one]
    cases i with
    | zero => show 0 + f 0 = f (8 * 0 + 0); rw [zero_add]
    | succ i =>
      have e : 8 * (i + 1) + 0 = (8 * i + 7) + 1 := by omega
      rw [e, runSum_succ, if_pos (by omega), zero_add]
  | succ j ih =>
    intro h
    have e : 8 * i + (j + 1) = (8 * i + j) + 1 := by omega
    rw [Finset.sum_range_succ, ← ih (by omega), e, runSum_succ, if_neg (by omega)]

/-- After the last column tile of row tile i: the sum of the row tile's eight terms. -/
theorem runSum_last (f : ℕ → M) (i : ℕ) : runSum f (8 * i + 7) = ∑ j : Fin 8, f (8 * i + j.val) := by
  rw [runSum_tile f i 7 (by omega), Finset.sum_range]

end Cert.PairKL
-- ==== Proof.KerAcc.lean ====
/-
  The accumulator along the grid. The grid's 32 points are visited row tile by row tile (position n = 8·i + j is
  column tile j of row tile i). By induction on the position, the 1 × 1 scratch after position n holds the running
  sum, restarted at every row tile, of the tiles' partial sums; so after the last column tile of row tile i it holds
  the sum of that row tile's eight partial sums, and the output block written there is that value at entry (0, 0)
  padded with zeros.
-/
import proofs.«144478_j53927609369071_2_alg».proof.Proof.KerBody
import proofs.«144478_j53927609369071_2_alg».proof.Proof.KerPay
import proofs.«144478_j53927609369071_2_alg».proof.Proof.RunSum

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Body Cert.KernelIdeal.Pay Cert.PairKL
open Idealize.ShloMosaic.ValueIdx

variable (m : (ℓ : Loc nD τ sig) → Buf (Elt Ideal) ℓ)

/-- The partial sum of the tile at grid position `n` (zero past the grid). -/
def partAt (c : Dev nD) (n : ℕ) : EReal :=
  if h : n < cfg0.N then tilePartial (iblk m c 0 ⟨n, h⟩) (iblk m c 1 ⟨n, h⟩) (iblk m c 2 ⟨n, h⟩) else 0

theorem partAt_lt (c : Dev nD) (n : ℕ) (h : n < cfg0.N) :
    partAt m c n = tilePartial (iblk m c 0 ⟨n, h⟩) (iblk m c 1 ⟨n, h⟩) (iblk m c 2 ⟨n, h⟩) := dif_pos h

/-- The scratch after a point whose case starts from the zero block. -/
theorem scratch_first (c : Dev nD) (t : Fin cfg0.N) (h0 : t.val % 8 = 0) (h1 : ¬t.val % 8 = 7) (y : S1x1.Idx) :
    (outsAt0 (F := Ideal) m c t.val t.isLt).2 y = 0 + partAt m c t.val := by
  have e := congrArg Prod.snd (outsAt0_A (F := Ideal) m c t h0 h1)
  have e2 := sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)
  rw [show (outsAt0 (F := Ideal) m c t.val t.isLt).2 = k0_pay2 (F := Ideal) (iblk m c 0 t) (iblk m c 1 t) (iblk m c 2 t) (k0_pay1 (F := Ideal)) from e.trans e2,
    pay2_apply, pay1_apply, partAt_lt m c t.val t.isLt]

/-- The scratch after a middle point: what the point before left, plus the tile's partial sum. -/
theorem scratch_mid (c : Dev nD) (t : Fin cfg0.N) (h0 : ¬t.val % 8 = 0) (h1 : ¬t.val % 8 = 7) (y : S1x1.Idx) :
    (outsAt0 (F := Ideal) m c t.val t.isLt).2 y
      = (outsAt0 (F := Ideal) m c (t.val - 1) (Nat.lt_of_le_of_lt (Nat.sub_le _ _) t.isLt)).2 y + partAt m c t.val := by
  have e := congrArg Prod.snd (outsAt0_B (F := Ideal) m c t h0 h1)
  have e2 := sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t)
    (outsAt0 (F := Ideal) m c (t.val - 1) (Nat.lt_of_le_of_lt (Nat.sub_le _ _) t.isLt)).2
  rw [show (outsAt0 (F := Ideal) m c t.val t.isLt).2 = k0_pay2 (F := Ideal) (iblk m c 0 t) (iblk m c 1 t) (iblk m c 2 t)
      (outsAt0 (F := Ideal) m c (t.val - 1) (Nat.lt_of_le_of_lt (Nat.sub_le _ _) t.isLt)).2 from e.trans e2,
    pay2_apply, partAt_lt m c t.val t.isLt]

/-- The scratch after a last point: the same. -/
theorem scratch_last (c : Dev nD) (t : Fin cfg0.N) (h0 : ¬t.val % 8 = 0) (h1 : t.val % 8 = 7) (y : S1x1.Idx) :
    (outsAt0 (F := Ideal) m c t.val t.isLt).2 y
      = (outsAt0 (F := Ideal) m c (t.val - 1) (Nat.lt_of_le_of_lt (Nat.sub_le _ _) t.isLt)).2 y + partAt m c t.val := by
  have e := congrArg Prod.snd (outsAt0_C (F := Ideal) m c t h0 h1)
  have e2 := sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
    (outsAt0 (F := Ideal) m c (t.val - 1) (Nat.lt_of_le_of_lt (Nat.sub_le _ _) t.isLt)).2
  rw [show (outsAt0 (F := Ideal) m c t.val t.isLt).2 = k0_pay2 (F := Ideal) (iblk m c 0 t) (iblk m c 1 t) (iblk m c 2 t)
      (outsAt0 (F := Ideal) m c (t.val - 1) (Nat.lt_of_le_of_lt (Nat.sub_le _ _) t.isLt)).2 from e.trans e2,
    pay2_apply, partAt_lt m c t.val t.isLt]

/-- THE ACCUMULATOR: after position `n` the scratch holds the running sum of the tiles' partial sums. -/
theorem scratch_eq (c : Dev nD) : ∀ (n : ℕ) (h : n < cfg0.N) (y : S1x1.Idx),
    (outsAt0 (F := Ideal) m c n h).2 y = runSum (partAt m c) n
  | 0, h, y => scratch_first m c ⟨0, h⟩ rfl (show ¬(0 : ℕ) % 8 = 7 by decide) y
  | n + 1, h, y => by
    rw [runSum_succ]
    by_cases h0 : (n + 1) % 8 = 0
    · rw [if_pos h0]
      exact scratch_first m c ⟨n + 1, h⟩ h0 (by show ¬(n + 1) % 8 = 7; omega) y
    · rw [if_neg h0, ← scratch_eq c n (Nat.lt_of_succ_lt h) y]
      by_cases h1 : (n + 1) % 8 = 7
      · exact scratch_last m c ⟨n + 1, h⟩ h0 h1 y
      · exact scratch_mid m c ⟨n + 1, h⟩ h0 h1 y

/-- The output block written at a last point: the padding payload of the scratch there. -/
theorem out_last (c : Dev nD) (t : Fin cfg0.N) (h0 : ¬t.val % 8 = 0) (h1 : t.val % 8 = 7) :
    (outsAt0 (F := Ideal) m c t.val t.isLt).1 = k0_pay3 (F := Ideal) (outsAt0 (F := Ideal) m c t.val t.isLt).2 := by
  have e := outsAt0_C (F := Ideal) m c t h0 h1
  have e1 := out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
    (outsAt0 (F := Ideal) m c (t.val - 1) (Nat.lt_of_le_of_lt (Nat.sub_le _ _) t.isLt)).2
  have e2 := sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t)
    (outsAt0 (F := Ideal) m c (t.val - 1) (Nat.lt_of_le_of_lt (Nat.sub_le _ _) t.isLt)).2
  rw [show (outsAt0 (F := Ideal) m c t.val t.isLt).2 = _ from (congrArg Prod.snd e).trans e2,
    show (outsAt0 (F := Ideal) m c t.val t.isLt).1 = _ from (congrArg Prod.fst e).trans e1]

end Cert.KernelIdeal.Acc

end
-- ==== Proof.LibSumSplit.lean ====
/-
  Sums regrouped by tiles, and a host sum over the last two axes.

  • An index below N = a · b is i · b + r for exactly one tile `i < a` and entry `r < b` (`tileIdx`), so in a
    commutative monoid a sum over `Fin N` is the sum over the tiles of the sums within each tile (`sum_tiles`): what
    joins a whole-axis sum with the same sum taken block by block.
  • A host sum of an `[a, n, m]` array of extended reals over its last two axes, read at batch `j`, is the initial
    value plus the double sum over the two reduced coordinates (`hostReduceAdd_last_two`): the indices that reduce to
    `j` are exactly the `(j, k, l)`.
-/
import Idealize.ShloMosaic.Lib.ValueIdx
import Idealize.ShloMosaic.PureOps.Ideal.Laws
import Idealize.ShloMosaic.PureOps.Reduce

noncomputable section

namespace Cert.PointDist

open Idealize.ShloMosaic Idealize.ShloMosaic.ValueIdx

/-- Entry `r` of tile `i`, of `a` tiles of `b` entries, as an index below `N = a · b`. -/
def tileIdx {a b N : ℕ} (h : a * b = N) (i : Fin a) (r : Fin b) : Fin N :=
  ⟨i.val * b + r.val, by
    have hi := i.isLt; have hr := r.isLt
    calc i.val * b + r.val < i.val * b + b := Nat.add_lt_add_left hr _
      _ = (i.val + 1) * b := (Nat.succ_mul _ _).symm
      _ ≤ a * b := Nat.mul_le_mul_right _ hi
      _ = N := h⟩

theorem tileIdx_val {a b N : ℕ} (h : a * b = N) (i : Fin a) (r : Fin b) : (tileIdx h i r).val = i.val * b + r.val := rfl

/-- A sum over `N = a · b` entries is the sum over the tiles of the sums within each tile. -/
theorem sum_tiles {M : Type*} [AddCommMonoid M] {a b N : ℕ} (h : a * b = N) (f : Fin N → M) :
    ∑ n, f n = ∑ i : Fin a, ∑ r : Fin b, f (tileIdx h i r) := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

/-- The host's sum of an `[a, n, m]` array over its last two axes, at batch `j`: the initial value plus the double
    sum over the two reduced coordinates. The indices that drop to `j` are exactly the `(j, n, m)`. -/
theorem hostReduceAdd_last_two {a n m : ℕ} (h : (⟨3, ![a, n, m]⟩ : Shape).ReducesTo [1, 2] (⟨1, ![a]⟩ : Shape))
    (x : (⟨3, ![a, n, m]⟩ : Shape).Idx → EReal) (init : EReal) (j : Fin a) :
    Ideal.hostReduceAdd h x init (ix1 j) = init + ∑ k : Fin n, ∑ l : Fin m, x (ix3 j k l) := by
  unfold Ideal.hostReduceAdd
  refine congrArg (init + ·) ?_
  rw [← Fintype.sum_prod_type']
  -- the one kept axis is the batch axis
  have hdrop : ∀ i : (⟨3, ![a, n, m]⟩ : Shape).Idx, ((h.drop i) 0).val = (i 0).val := fun i => rfl
  have hleft : ∀ i ∈ Finset.univ.filter (fun i => h.drop i = ix1 j), ix3 j (i 1) (i 2) = i := by
    intro i hi
    have hj := (Finset.mem_filter.1 hi).2
    have h0 : (i 0).val = j.val := by
      have := congrArg (fun y : (⟨1, ![a]⟩ : Shape).Idx => (y 0).val) hj
      exact (hdrop i).symm.trans this
    funext c; apply Fin.ext
    match c with
    | ⟨0, _⟩ => exact h0.symm
    | ⟨1, _⟩ => rfl
    | ⟨2, _⟩ => rfl
  refine Finset.sum_nbij' (fun i => (i 1, i 2)) (fun p => ix3 j p.1 p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg x (hleft i hi).symm

end Cert.PointDist

end
-- ==== Proof.KerFinal.lean ====
/-
  The kernel's result array. The output window's block for row tile i is written back once, after the row tile's
  last column tile, and holds the row tile's total at entry (0, 0) and zeros elsewhere; the four blocks tile the
  [32, 128] result array. So the array after the run is, at (R, l), the padded total of row tile R / 8 read at
  (R mod 8, l), and its entries sum to the sum of the four row tiles' totals.
-/
import proofs.«144478_j53927609369071_2_alg».proof.Proof.KerAcc
import proofs.«144478_j53927609369071_2_alg».proof.Proof.LibSumSplit

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Body Cert.KernelIdeal.Pay Cert.KernelIdeal.Acc Cert.PairKL Cert.PointDist
open Idealize.ShloMosaic.ValueIdx

variable (m : (ℓ : Loc nD τ sig) → Buf (Elt Ideal) ℓ)

/-- The total of row tile `i`: the accumulator after its last column tile. -/
def rowTotal (c : Dev nD) (i : ℕ) : EReal := runSum (partAt m c) (8 * i + 7)

/-- The result array: row tile R / 8's total, padded, read at (R mod 8, l). -/
def outArr (c : Dev nD) : S32x128.Idx → EReal := fun i =>
  k0_pay3 (F := Ideal) (fun _ => rowTotal m c ((i 0).val / 8)) (ix2 (⟨(i 0).val % 8, Nat.mod_lt _ (by decide)⟩ : Fin 8) (i 1))

/-- The output window's block index at grid position t is (t / 8, 0): decided over the grid. -/
theorem idx3 : ∀ t : Fin cfg0.N, win0_3.index t (0 : Fin 2) = t.val / 8 ∧ win0_3.index t (1 : Fin 2) = 0 :=
  (by decide +kernel : ∀ t : Fin grid0.N, win0_3.index t (0 : Fin 2) = t.val / 8 ∧ win0_3.index t (1 : Fin 2) = 0)

/-- What a write-back point writes is its block of the result array. -/
theorem flushed_eq (c : Dev nD) (t : Fin cfg0.N) (hf : (cfg0.win 3).flush t = true) :
    (dats (F := Ideal) m 0 c).flushed 3 t = ((cfg0.win 3).blk t).view.read (Elt Ideal) (outArr m c) := by
  have h7 : t.val % 8 = 7 := (flush0_3 t).mp hf
  have h0 : ¬t.val % 8 = 0 := by omega
  obtain ⟨e0, e1⟩ := idx3 t
  show (cfg0.win 3).cut (grid0.coords t) ((dats (F := Ideal) m 0 c).after 3 t) = _
  rw [after0_3, out_last m c t h0 h7]
  funext j
  show k0_pay3 (F := Ideal) (outsAt0 (F := Ideal) m c t.val t.isLt).2 j = outArr m c (((cfg0.win 3).blk t).view.emb j)
  have hj0 : (j 0).val < 8 := (j 0).isLt
  have hj1 : (j 1).val < 128 := (j 1).isLt
  have E0 : ((((cfg0.win 3).blk t).view.emb j) 0).val = t.val / 8 * 8 + (j 0).val := by
    show win0_3.index t (0 : Fin 2) * 8 + 1 * (j 0).val = _
    rw [e0]; omega
  have E1 : ((((cfg0.win 3).blk t).view.emb j) 1).val = (j 1).val := by
    show win0_3.index t (1 : Fin 2) * 128 + 1 * (j 1).val = _
    rw [e1]; omega
  have hs : (outsAt0 (F := Ideal) m c t.val t.isLt).2 = fun _ => rowTotal m c (((((cfg0.win 3).blk t).view.emb j) 0).val / 8) := by
    funext y
    rw [scratch_eq m c t.val t.isLt y]
    unfold rowTotal
    congr 1
    rw [E0]; omega
  unfold outArr
  rw [hs]
  congr 1
  funext a
  apply Fin.ext
  match a with
  | ⟨0, _⟩ => show (j 0).val = ((((cfg0.win 3).blk t).view.emb j) 0).val % 8; rw [E0]; omega
  | ⟨1, _⟩ => show (j 1).val = ((((cfg0.win 3).blk t).view.emb j) 1).val; rw [E1]

/-- An index of the result array is in point t's block iff each coordinate is in the block's range. -/
theorem mem_blk (t : Fin cfg0.N) (i : S32x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v20).slice (win0_3.rect t)).set ↔ _
  rw [View.set_slice_whole, Rect.mem_set_unit]
  exact Iff.rfl

/-- THE RESULT ARRAY after the run: every index lies in the block written after the last column tile of its row tile. -/
theorem final3 (c : Dev nD) : (dats (F := Ideal) m 0 c).arrAt 3 cfg0.N = outArr m c :=
  (dats (F := Ideal) m 0 c).arrAt_eq_of_cover 3 (outArr m c) (flushed_eq m c) fun i => by
    have hi0 : (i 0).val < 32 := (i 0).isLt
    have hi1 : (i 1).val < 128 := (i 1).isLt
    have hN : cfg0.N = 32 := N_0
    have hlt : 8 * ((i 0).val / 8) + 7 < cfg0.N := by rw [hN]; omega
    refine ⟨⟨8 * ((i 0).val / 8) + 7, hlt⟩, (flush0_3 _).mpr (by show (8 * ((i 0).val / 8) + 7) % 8 = 7; omega), ?_⟩
    rw [mem_blk]
    obtain ⟨e0, e1⟩ := idx3 ⟨8 * ((i 0).val / 8) + 7, hlt⟩
    intro a
    match a with
    | ⟨0, _⟩ =>
      show win0_3.index _ (0 : Fin 2) * 8 ≤ (i 0).val ∧ (i 0).val < win0_3.index _ (0 : Fin 2) * 8 + 8
      rw [e0]; dsimp only; omega
    | ⟨1, _⟩ =>
      show win0_3.index _ (1 : Fin 2) * 128 ≤ (i 1).val ∧ (i 1).val < win0_3.index _ (1 : Fin 2) * 128 + 128
      rw [e1]; omega

/-- The result array's entries sum to the four row tiles' totals. -/
theorem outArr_sum (c : Dev nD) : ∑ i : S32x128.Idx, outArr m c i = ∑ i : Fin 4, rowTotal m c i.val := by
  rw [sum_idx2 (n0 := 32) (n1 := 128), sum_tiles (a := 4) (b := 8) (N := 32) rfl]
  refine Finset.sum_congr rfl fun i _ => ?_
  rw [← pay3_sum (fun _ => rowTotal m c i.val), sum_idx2 (n0 := 8) (n1 := 128)]
  refine Finset.sum_congr rfl fun r _ => Finset.sum_congr rfl fun l _ => ?_
  have hr : r.val < 8 := r.isLt
  have hv : (tileIdx (a := 4) (b := 8) (N := 32) rfl i r).val = i.val * 8 + r.val := rfl
  unfold outArr
  have hq : ((ix2 (tileIdx (a := 4) (b := 8) (N := 32) rfl i r) l : S32x128.Idx) 0).val / 8 = i.val := by
    show (tileIdx (a := 4) (b := 8) (N := 32) rfl i r).val / 8 = i.val
    rw [hv]; omega
  rw [hq]
  congr 1
  funext a
  apply Fin.ext
  match a with
  | ⟨0, _⟩ => show (tileIdx (a := 4) (b := 8) (N := 32) rfl i r).val % 8 = r.val; rw [hv]; omega
  | ⟨1, _⟩ => rfl

end Cert.KernelIdeal.Final

end
-- ==== Proof.Algebra.lean ====
/-
  Extended-real algebra behind the pairwise divergence sum: how the two arrangements of
  `rsp - rsq - P + Q` compare on the extended reals.

  Conventions of the extended reals used throughout: `⊤ + ⊥ = ⊥`, `x - y = x + -y`, `0 * ⊤ = 0`,
  and the logarithm sends `⊥` and every real `≤ 0` to `⊥`, and `⊤` to `⊤`.
-/
import Idealize.ShloMosaic.PureOps.Ideal

noncomputable section

namespace Cert.PairKL

open Idealize.ShloMosaic
open scoped BigOperators

/-! ### Finite sums of extended reals -/

/-- A finite sum of reals, each read as an extended real, is the real sum read as an extended real. -/
theorem sum_coe {ι : Type*} (s : Finset ι) (f : ι → ℝ) :
    ∑ c ∈ s, ((f c : ℝ) : EReal) = ((∑ c ∈ s, f c : ℝ) : EReal) := by
  classical
  refine Finset.induction_on s ?_ ?_
  · simp
  · intro a s ha ih
    rw [Finset.sum_insert ha, Finset.sum_insert ha, ih, EReal.coe_add]

/-- A finite sum with a term equal to `⊥` is `⊥`. -/
theorem sum_eq_bot_of_mem {ι : Type*} (s : Finset ι) (f : ι → EReal) {c : ι} (hc : c ∈ s)
    (h : f c = ⊥) : ∑ i ∈ s, f i = ⊥ := by
  classical
  rw [← Finset.add_sum_erase s f hc, h, EReal.bot_add]

/-- A finite sum none of whose terms is `⊥` is not `⊥`. -/
theorem sum_ne_bot {ι : Type*} (s : Finset ι) (f : ι → EReal) (h : ∀ i ∈ s, f i ≠ ⊥) :
    ∑ i ∈ s, f i ≠ ⊥ := by
  classical
  revert h
  refine Finset.induction_on s ?_ ?_
  · intro _
    simp
  · intro a s ha ih h
    rw [Finset.sum_insert ha]
    exact EReal.add_ne_bot_iff.mpr
      ⟨h a (Finset.mem_insert_self a s), ih (fun i hi => h i (Finset.mem_insert_of_mem hi))⟩

/-- A finite sum with a term equal to `⊤` and no term equal to `⊥` is `⊤`. -/
theorem sum_eq_top_of_mem {ι : Type*} (s : Finset ι) (f : ι → EReal) {c : ι} (hc : c ∈ s)
    (htop : f c = ⊤) (h : ∀ i ∈ s, f i ≠ ⊥) : ∑ i ∈ s, f i = ⊤ := by
  classical
  rw [← Finset.add_sum_erase s f hc, htop]
  exact EReal.top_add_of_ne_bot
    (sum_ne_bot _ f (fun i hi => h i (Finset.mem_of_mem_erase hi)))

/-! ### The rearrangement for real sums -/

/-- For reals `U`, `W` and arbitrary extended reals `X`, `P`:
    `(X - U) - (P + -W) = (X - P) - (U - W)`. Subtracting a real never meets the `⊤ + ⊥` corner,
    so both sides are infinite exactly when `X - P` is, with the same sign. -/
theorem sub_rearrange_coe (U W : ℝ) (X P : EReal) :
    (X - (U : EReal)) - (P + -(W : EReal)) = (X - P) - ((U : EReal) - (W : EReal)) := by
  rw [← EReal.coe_neg, ← EReal.coe_sub]
  induction X using EReal.rec with
  | bot => rw [EReal.bot_sub, EReal.bot_sub, EReal.bot_sub, EReal.bot_sub]
  | coe x =>
    induction P using EReal.rec with
    | bot => rw [EReal.bot_add, ← EReal.coe_sub, EReal.coe_sub_bot, EReal.coe_sub_bot, EReal.top_sub_coe]
    | coe p =>
      rw [← EReal.coe_sub, ← EReal.coe_add, ← EReal.coe_sub, ← EReal.coe_sub, ← EReal.coe_sub]
      congr 1
      ring
    | top =>
      rw [EReal.top_add_coe, EReal.sub_top, EReal.sub_top, EReal.bot_sub]
  | top =>
    induction P using EReal.rec with
    | bot => rw [EReal.bot_add, EReal.top_sub_coe, EReal.top_sub_bot, EReal.top_sub_coe]
    | coe p => rw [← EReal.coe_add, EReal.top_sub_coe, EReal.top_sub_coe, EReal.top_sub_coe, EReal.top_sub_coe]
    | top => rw [EReal.top_add_coe, EReal.sub_top, EReal.sub_top, EReal.bot_sub]

/-- `max z (-z) = ⊤` when `z` is one of the two infinities. -/
theorem max_neg_eq_top {z : EReal} (hz : z = ⊥ ∨ z = ⊤) : max z (-z) = ⊤ := by
  rcases hz with rfl | rfl
  · rw [EReal.neg_bot]
    exact max_eq_right bot_le
  · rw [EReal.neg_top]
    exact max_eq_left bot_le

/-! ### One class -/

/-- Per-class dichotomy. For positive reals `ra`, `rb` and an arbitrary extended real `v`, the two
    products `(ra v) log (ra v)` and `(ra v) log (rb v)` are both real when `v` is a real `≥ 0`
    (at `v = 0` both are `0 * ⊥ = 0`), and both `⊤` otherwise (a negative real times `⊥`, `⊥ * ⊥`, `⊤ * ⊤`). -/
theorem class_dichotomy {ra rb : ℝ} (hra : 0 < ra) (hrb : 0 < rb) (v : EReal) :
    (∃ x y : ℝ, ((ra : EReal) * v) * Ideal.log ((ra : EReal) * v) = (x : EReal)
        ∧ ((ra : EReal) * v) * Ideal.log ((rb : EReal) * v) = (y : EReal))
    ∨ (((ra : EReal) * v) * Ideal.log ((ra : EReal) * v) = ⊤
        ∧ ((ra : EReal) * v) * Ideal.log ((rb : EReal) * v) = ⊤) := by
  induction v using EReal.rec with
  | bot =>
    right
    rw [EReal.coe_mul_bot_of_pos hra, EReal.coe_mul_bot_of_pos hrb, Ideal.log_bot,
      EReal.bot_mul_bot]
    exact ⟨rfl, rfl⟩
  | top =>
    right
    rw [EReal.coe_mul_top_of_pos hra, EReal.coe_mul_top_of_pos hrb, Ideal.log_top,
      EReal.top_mul_top]
    exact ⟨rfl, rfl⟩
  | coe s =>
    rw [← EReal.coe_mul, ← EReal.coe_mul, Ideal.log_coe, Ideal.log_coe]
    rcases lt_trichotomy s 0 with hs | hs | hs
    · right
      have h1 : ra * s < 0 := mul_neg_of_pos_of_neg hra hs
      have h2 : rb * s < 0 := mul_neg_of_pos_of_neg hrb hs
      rw [if_pos h1.le, if_pos h2.le, EReal.coe_mul_bot_of_neg h1]
      exact ⟨rfl, rfl⟩
    · left
      subst hs
      refine ⟨0, 0, ?_, ?_⟩ <;> simp
    · left
      have h1 : 0 < ra * s := mul_pos hra hs
      have h2 : 0 < rb * s := mul_pos hrb hs
      rw [if_neg (not_le.mpr h1), if_neg (not_le.mpr h2)]
      exact ⟨ra * s * Real.log (ra * s), ra * s * Real.log (rb * s),
        (EReal.coe_mul _ _).symm, (EReal.coe_mul _ _).symm⟩

/-! ### All classes -/

/-- If in every class the pair `(u c, w c)` is either a pair of reals or `(⊤, ⊤)`, then for all extended
    reals `X`, `P`, writing `|z| = max z (-z)`:
    `|(X - ∑ u) - (P + ∑ -w)| = |(X - P) - (∑ u - ∑ w)|`.
    When every pair is real the two inner values are equal. Otherwise `∑ u = ∑ w = ⊤` and `∑ -w = ⊥`:
    the left inner value is `⊥ - ⊥ = ⊥`, the right one is `(X - P) - ⊥`, an infinity; both have
    absolute value `⊤`. -/
theorem abs_rearrange {ι : Type*} [Fintype ι] (u w : ι → EReal)
    (h : ∀ c, (∃ x y : ℝ, u c = (x : EReal) ∧ w c = (y : EReal)) ∨ (u c = ⊤ ∧ w c = ⊤))
    (X P : EReal) :
    max ((X - ∑ c, u c) - (P + ∑ c, -(w c))) (-((X - ∑ c, u c) - (P + ∑ c, -(w c))))
      = max ((X - P) - (∑ c, u c - ∑ c, w c)) (-((X - P) - (∑ c, u c - ∑ c, w c))) := by
  by_cases hall : ∀ c, ∃ x y : ℝ, u c = (x : EReal) ∧ w c = (y : EReal)
  · choose x y hxy using hall
    have hu : ∀ c, u c = (x c : EReal) := fun c => (hxy c).1
    have hw : ∀ c, w c = (y c : EReal) := fun c => (hxy c).2
    have hU : ∑ c, u c = ((∑ c, x c : ℝ) : EReal) := by
      rw [← sum_coe]
      exact Finset.sum_congr rfl (fun c _ => hu c)
    have hW : ∑ c, w c = ((∑ c, y c : ℝ) : EReal) := by
      rw [← sum_coe]
      exact Finset.sum_congr rfl (fun c _ => hw c)
    have hN : ∑ c, -(w c) = -((∑ c, y c : ℝ) : EReal) := by
      rw [← EReal.coe_neg, ← Finset.sum_neg_distrib, ← sum_coe]
      exact Finset.sum_congr rfl (fun c _ => by rw [hw c, EReal.coe_neg])
    rw [hU, hW, hN, sub_rearrange_coe]
  · obtain ⟨c0, hc0⟩ := not_forall.mp hall
    have htop : u c0 = ⊤ ∧ w c0 = ⊤ := by
      rcases h c0 with hr | ht
      · exact absurd hr hc0
      · exact ht
    have hnb : ∀ c, u c ≠ ⊥ ∧ w c ≠ ⊥ := by
      intro c
      rcases h c with ⟨x, y, hx, hy⟩ | ⟨hx, hy⟩
      · rw [hx, hy]
        exact ⟨EReal.coe_ne_bot x, EReal.coe_ne_bot y⟩
      · rw [hx, hy]
        exact ⟨top_ne_bot, top_ne_bot⟩
    have hU : ∑ c, u c = ⊤ :=
      sum_eq_top_of_mem Finset.univ u (Finset.mem_univ c0) htop.1 (fun c _ => (hnb c).1)
    have hW : ∑ c, w c = ⊤ :=
      sum_eq_top_of_mem Finset.univ w (Finset.mem_univ c0) htop.2 (fun c _ => (hnb c).2)
    have hN : ∑ c, -(w c) = ⊥ :=
      sum_eq_bot_of_mem Finset.univ (fun c => -(w c)) (Finset.mem_univ c0)
        (show -(w c0) = ⊥ by rw [htop.2, EReal.neg_top])
    rw [hU, hW, hN]
    have hL : (X - ⊤) - (P + ⊥) = ⊥ := by rw [EReal.sub_top, EReal.bot_sub]
    have hR : (X - P) - ((⊤ : EReal) - ⊤) = ⊥ ∨ (X - P) - ((⊤ : EReal) - ⊤) = ⊤ := by
      rw [EReal.sub_top]
      by_cases hxp : X - P = ⊥
      · left
        rw [hxp, EReal.bot_sub]
      · right
        exact EReal.sub_bot hxp
    rw [max_neg_eq_top (Or.inl hL), max_neg_eq_top hR]

/-- The two arrangements of the pairwise divergence term have the same absolute value.
    `a`, `b` are two rows with positive real entries, `v` an arbitrary extended-real weight vector, the
    rows of `q` are `a c * v c` and `b c * v c`, and `X`, `P` are arbitrary extended reals. -/
theorem pair_abs_eq {ι : Type*} [Fintype ι] (a b v : ι → EReal)
    (ha : ∀ c, ∃ r : ℝ, 0 < r ∧ a c = (r : EReal)) (hb : ∀ c, ∃ r : ℝ, 0 < r ∧ b c = (r : EReal))
    (X P : EReal) :
    max ((X - ∑ c, (a c * v c) * Ideal.log (a c * v c))
          - (P + ∑ c, (a c * v c) * -(Ideal.log (b c * v c))))
        (-((X - ∑ c, (a c * v c) * Ideal.log (a c * v c))
          - (P + ∑ c, (a c * v c) * -(Ideal.log (b c * v c)))))
      = max (((X - P) - (∑ c, (a c * v c) * Ideal.log (a c * v c)
          - ∑ c, (a c * v c) * Ideal.log (b c * v c))))
        (-(((X - P) - (∑ c, (a c * v c) * Ideal.log (a c * v c)
          - ∑ c, (a c * v c) * Ideal.log (b c * v c))))) := by
  have hd : ∀ c, (∃ x y : ℝ, (a c * v c) * Ideal.log (a c * v c) = (x : EReal)
        ∧ (a c * v c) * Ideal.log (b c * v c) = (y : EReal))
      ∨ ((a c * v c) * Ideal.log (a c * v c) = ⊤ ∧ (a c * v c) * Ideal.log (b c * v c) = ⊤) := by
    intro c
    obtain ⟨ra, hra, hac⟩ := ha c
    obtain ⟨rb, hrb, hbc⟩ := hb c
    rw [hac, hbc]
    exact class_dichotomy hra hrb (v c)
  have key := abs_rearrange (fun c => (a c * v c) * Ideal.log (a c * v c))
    (fun c => (a c * v c) * Ideal.log (b c * v c)) hd X P
  simp only [mul_neg]
  exact key

end Cert.PairKL

end
-- ==== Proof.Spec.lean ====
/-
  The two programs' common shape. With `p`, `logp`, `q`, `logq` the [8192, 128] arrays of the head, both results are
      (c₁ + (0 + Σ_{I, J} t(I, J))) / c₂
  over the 8192 × 8192 pairs of rows, with one summand per pair:
    the reference's  |(Σ_c p_I logp_I − Σ_c p_I logp_J) − (Σ_c q_I logq_I − Σ_c q_I logq_J)|,
    the kernel's     |(Σ_c p_I logp_I − Σ_c q_I logq_I) − Σ_{k < 256} lhs_I,k · rhs_J,k|
  where lhs = [p | q] and rhs = [logp | −logq] are the class-axis concatenations, so that the contraction over 256
  splits into Σ_c p_I logp_J + Σ_c q_I (−logq_J). The two summands are equal extended reals whenever q is a
  positive real multiple of a class-weight vector, whatever the weights and whatever p and logp are (`pair_abs_eq`).
-/
import Idealize.ShloMosaic.PureOps.Ideal
import proofs.«144478_j53927609369071_2_alg».proof.Proof.Algebra

noncomputable section

namespace Cert.PairKL

open Idealize.ShloMosaic

/-- Row `I` of `a` contracted with row `J` of `b` over the 128 classes. -/
def rowDot (a b : Fin 8192 → Fin 128 → EReal) (I J : Fin 8192) : EReal := ∑ k : Fin 128, a I k * b J k

/-- The reference's summand at the pair (I, J). -/
def refTerm (pp lp q lq : Fin 8192 → Fin 128 → EReal) (I J : Fin 8192) : EReal :=
  max ((rowDot pp lp I I - rowDot pp lp I J) - (rowDot q lq I I - rowDot q lq I J))
    (-((rowDot pp lp I I - rowDot pp lp I J) - (rowDot q lq I I - rowDot q lq I J)))

/-- The kernel's summand at the pair (I, J), over the row-difference column `rsd` and the two concatenated operands. -/
def kerTerm (rsd : Fin 8192 → EReal) (lhs rhs : Fin 8192 → Fin 256 → EReal) (I J : Fin 8192) : EReal :=
  max (rsd I - ∑ k : Fin 256, lhs I k * rhs J k) (-(rsd I - ∑ k : Fin 256, lhs I k * rhs J k))

/-- The result from the total: the f32 nearest 1e-4 added, divided by 2²⁶ (both as the programs spell them). -/
def lossOf (tot : EReal) : EReal :=
  Ideal.div (Ideal.ofBits .f32 0x38D1B717#32 + (Ideal.ofBits .f32 0x00000000#32 + tot)) (Ideal.ofBits .f32 0x4C800000#32)

/-- A contraction over the 256 concatenated classes is the contraction over the first 128 plus that over the last 128. -/
theorem sum_256_split (f : Fin 256 → EReal) :
    ∑ k : Fin 256, f k = ∑ k : Fin 128, f (Fin.castAdd 128 k) + ∑ k : Fin 128, f (Fin.natAdd 128 k) :=
  Fin.sum_univ_add (a := 128) (b := 128) (f : Fin (128 + 128) → EReal)

/-- THE PAIR IDENTITY. If `q` is, entry by entry, a positive real (the clipped one-hot entry) times the class weight,
    `logq = log q`, the kernel's column is `Σ p logp − Σ q logq` and its operands are `[p | q]` and `[logp | −logq]`,
    then the kernel's summand is the reference's at every pair — for arbitrary extended-real weights, `p` and `logp`. -/
theorem kerTerm_eq_refTerm (pp lp cl : Fin 8192 → Fin 128 → EReal) (cw : Fin 128 → EReal)
    (hcl : ∀ I k, ∃ r : ℝ, 0 < r ∧ cl I k = (r : EReal))
    (rsd : Fin 8192 → EReal) (lhs rhs : Fin 8192 → Fin 256 → EReal)
    (hrsd : ∀ I, rsd I = rowDot pp lp I I - rowDot (fun I k => cl I k * cw k) (fun I k => Ideal.log (cl I k * cw k)) I I)
    (hl0 : ∀ I (k : Fin 128), lhs I (Fin.castAdd 128 k) = pp I k) (hl1 : ∀ I (k : Fin 128), lhs I (Fin.natAdd 128 k) = cl I k * cw k)
    (hr0 : ∀ J (k : Fin 128), rhs J (Fin.castAdd 128 k) = lp J k)
    (hr1 : ∀ J (k : Fin 128), rhs J (Fin.natAdd 128 k) = -(Ideal.log (cl J k * cw k))) (I J : Fin 8192) :
    kerTerm rsd lhs rhs I J = refTerm pp lp (fun I k => cl I k * cw k) (fun I k => Ideal.log (cl I k * cw k)) I J := by
  unfold kerTerm refTerm
  rw [sum_256_split, hrsd I]
  simp only [hl0, hl1, hr0, hr1]
  exact pair_abs_eq (cl I) (cl J) cw (hcl I) (hcl J) (rowDot pp lp I I) (rowDot pp lp I J)

end Cert.PairKL

end
-- ==== Proof.KerBlocks.lean ====
/-
  The tiles' partial sums over the window arrays. At grid position t = 8·i + j the three input windows hold row
  tile i of the left operand and of the row-difference column, and row tile j of the right operand: entry (r, k)
  of the left block is the array's entry (2048·i + r, k), entry (c, k) of the right block is (1024·j + c, k), and
  entry (r, 0) of the column block is (2048·i + r, 0). So the tile's partial sum is the sum, over its 2048 × 1024
  pairs, of the kernel's summand at the pair of rows (2048·i + r, 1024·j + c).
-/
import proofs.«144478_j53927609369071_2_alg».proof.Proof.KerFinal
import proofs.«144478_j53927609369071_2_alg».proof.Proof.Spec

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.KernelIdeal.Pay Cert.KernelIdeal.Acc Cert.KernelIdeal.Final Cert.PairKL Cert.PointDist
open Idealize.ShloMosaic.ValueIdx

variable (m : (ℓ : Loc nD τ sig) → Buf (Elt Ideal) ℓ)

/-- The three input windows' block indices at grid position t: (t / 8, 0), (t mod 8, 0), (t / 8, 0). -/
theorem idx012 : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0)

/-- The kernel's three arrays as the region finds them, by coordinates. -/
def rsdA (c : Dev nD) (I : Fin 8192) : EReal := V (F := Ideal) m c main_v14 (ix2 I (0 : Fin 1))
def lhsA (c : Dev nD) (I : Fin 8192) (k : Fin 256) : EReal := V (F := Ideal) m c main_v16 (ix2 I k)
def rhsA (c : Dev nD) (J : Fin 8192) (k : Fin 256) : EReal := V (F := Ideal) m c main_v19 (ix2 J k)

theorem iblk0_apply (c : Dev nD) (i : Fin 4) (j : Fin 8) (h : 8 * i.val + j.val < cfg0.N) (r : Fin 2048) (k : Fin 256) :
    (iblk (F := Ideal) m c 0 ⟨8 * i.val + j.val, h⟩ : Vec Ideal S2048x256 .bf16) (ix2 r k) = lhsA m c (tileIdx (a := 4) (b := 2048) (N := 8192) rfl i r) k := by
  obtain ⟨e0, e1, -⟩ := idx012 ⟨8 * i.val + j.val, h⟩
  have hj := j.isLt
  unfold iblk lhsA
  rw [View.read_apply]
  show V (F := Ideal) m c main_v16 _ = V (F := Ideal) m c main_v16 _
  congr 1
  funext a
  apply Fin.ext
  match a with
  | ⟨0, _⟩ =>
    show win0_0.index ⟨8 * i.val + j.val, h⟩ (0 : Fin 2) * 2048 + 1 * r.val = i.val * 2048 + r.val
    rw [e0]; dsimp only; omega
  | ⟨1, _⟩ =>
    show win0_0.index ⟨8 * i.val + j.val, h⟩ (1 : Fin 2) * 256 + 1 * k.val = k.val
    rw [e1]; omega

theorem iblk1_apply (c : Dev nD) (i : Fin 4) (j : Fin 8) (h : 8 * i.val + j.val < cfg0.N) (cc : Fin 1024) (k : Fin 256) :
    (iblk (F := Ideal) m c 1 ⟨8 * i.val + j.val, h⟩ : Vec Ideal S1024x256 .bf16) (ix2 cc k) = rhsA m c (tileIdx (a := 8) (b := 1024) (N := 8192) rfl j cc) k := by
  obtain ⟨-, -, e0, e1, -⟩ := idx012 ⟨8 * i.val + j.val, h⟩
  have hj := j.isLt
  unfold iblk rhsA
  rw [View.read_apply]
  show V (F := Ideal) m c main_v19 _ = V (F := Ideal) m c main_v19 _
  congr 1
  funext a
  apply Fin.ext
  match a with
  | ⟨0, _⟩ =>
    show win0_1.index ⟨8 * i.val + j.val, h⟩ (0 : Fin 2) * 1024 + 1 * cc.val = j.val * 1024 + cc.val
    rw [e0]; dsimp only; omega
  | ⟨1, _⟩ =>
    show win0_1.index ⟨8 * i.val + j.val, h⟩ (1 : Fin 2) * 256 + 1 * k.val = k.val
    rw [e1]; omega

theorem iblk2_apply (c : Dev nD) (i : Fin 4) (j : Fin 8) (h : 8 * i.val + j.val < cfg0.N) (r : Fin 2048) :
    (iblk (F := Ideal) m c 2 ⟨8 * i.val + j.val, h⟩ : Vec Ideal S2048x1 .f32) (ix2 r (0 : Fin 1)) = rsdA m c (tileIdx (a := 4) (b := 2048) (N := 8192) rfl i r) := by
  obtain ⟨-, -, -, -, e0, e1⟩ := idx012 ⟨8 * i.val + j.val, h⟩
  have hj := j.isLt
  unfold iblk rsdA
  rw [View.read_apply]
  show V (F := Ideal) m c main_v14 _ = V (F := Ideal) m c main_v14 _
  congr 1
  funext a
  apply Fin.ext
  match a with
  | ⟨0, _⟩ =>
    show win0_2.index ⟨8 * i.val + j.val, h⟩ (0 : Fin 2) * 2048 + 1 * r.val = i.val * 2048 + r.val
    rw [e0]; dsimp only; omega
  | ⟨1, _⟩ =>
    show win0_2.index ⟨8 * i.val + j.val, h⟩ (1 : Fin 2) * 1 + 1 * 0 = 0
    rw [e1]

/-- The partial sum of tile (i, j) is the sum of the kernel's summands over the tile's pairs of rows. -/
theorem partAt_eq (c : Dev nD) (i : Fin 4) (j : Fin 8) :
    partAt m c (8 * i.val + j.val) = ∑ r : Fin 2048, ∑ cc : Fin 1024,
      kerTerm (rsdA m c) (lhsA m c) (rhsA m c) (tileIdx (a := 4) (b := 2048) (N := 8192) rfl i r) (tileIdx (a := 8) (b := 1024) (N := 8192) rfl j cc) := by
  have h : 8 * i.val + j.val < cfg0.N := by
    have hi := i.isLt; have hj := j.isLt
    rw [show cfg0.N = 32 from N_0]; omega
  rw [partAt_lt m c _ h]
  unfold tilePartial
  refine Finset.sum_congr rfl fun r _ => Finset.sum_congr rfl fun cc _ => ?_
  unfold tileTerm kerTerm
  rw [iblk2_apply m c i j h r]
  simp only [iblk0_apply m c i j h r, iblk1_apply m c i j h cc]

/-- THE KERNEL'S TOTAL: the four row tiles' totals add up to the sum of the kernel's summand over all pairs of rows. -/
theorem total_eq (c : Dev nD) :
    ∑ i : Fin 4, rowTotal m c i.val = ∑ I : Fin 8192, ∑ J : Fin 8192, kerTerm (rsdA m c) (lhsA m c) (rhsA m c) I J := by
  rw [sum_tiles (a := 4) (b := 2048) (N := 8192) rfl]
  refine Finset.sum_congr rfl fun i _ => ?_
  unfold rowTotal
  rw [runSum_last]
  simp only [partAt_eq m c i]
  rw [Finset.sum_comm]
  refine Finset.sum_congr rfl fun r _ => ?_
  rw [sum_tiles (a := 8) (b := 1024) (N := 8192) rfl]

end Cert.KernelIdeal.Blocks

end
-- ==== Proof.KerTail.lean ====
/-
  After the region the host adds up the [32, 128] result array from 0, adds the constant and divides by the other
  constant. The array's entries sum to the four row tiles' totals, which add up to the kernel's summand over all
  pairs of rows; so the kernel's result is the loss of that double sum, and its three arguments end unchanged.
-/
import proofs.«144478_j53927609369071_2_alg».proof.Proof.KerBlocks
import Idealize.ShloMosaic.Lib.StableHlo.Run

noncomputable section

open Idealize.ShloMosaic Idealize.ShloMosaic.TcCoe Idealize.SL.Sem
open Idealize.ShloMosaic.Pipeline (Dat)

namespace Cert.KernelIdeal.Tail

open Cert.KernelIdeal Cert.KernelIdeal.Gen Cert.KernelIdeal.Final Cert.KernelIdeal.Blocks Cert.PairKL Idealize.ShloMosaic.StableHlo
open Idealize.ShloMosaic.ValueIdx

variable (m : (ℓ : Loc nD τ sig) → Buf (Elt Ideal) ℓ) (ρ : Dev nD → PrngReg)

/-- The last three host operations at the scalar's one index. -/
theorem divAdd_apply (R : FVec Ideal S_ .f32) (i : S_.Idx) :
    Host.divf (addf (constant S_ .f32 0x38D1B717#32) R) (constant S_ .f32 0x4C800000#32) i
      = Ideal.div (Ideal.ofBits .f32 0x38D1B717#32 + R i) (Ideal.ofBits .f32 0x4C800000#32) := rfl

/-- The host's total of the [32, 128] array from the initial value 0. -/
theorem total_apply (X : FVec Ideal S32x128 .f32) (i : S_.Idx) :
    Host.reduceAdd X (constant S_ .f32 0x00000000#32) reducesTo_S32x128_S_d0_1 h_S_ i
      = Ideal.ofBits .f32 0x00000000#32 + ∑ j : S32x128.Idx, X j := by
  simp only [Host.reduceAdd, Ideal.hostReduceAdd_def]
  rw [Ideal.hostReduceAdd_total reducesTo_S32x128_S_d0_1 (fun b => b.elim0) X _ i]
  rfl

/-- THE KERNEL'S RESULT as the host lines after the region leave it. -/
theorem tail_eq (c : Dev nD) :
    Pipeline.afterTail₀ cfgs (dats (F := Ideal) m) 0 (V0 (F := Ideal) m) [hostOps1] c main_v23
      = fun _ => lossOf (∑ I : Fin 8192, ∑ J : Fin 8192, kerTerm (rsdA m c) (lhsA m c) (rhsA m c) I J) := by
  unfold Pipeline.afterTail₀
  show StableHlo.after hostOps1 _ (Proc.devRef .tc main_v23) = _
  after_results
  have hA : Pipeline.withArrays (cfgs 0).spec c (V0 (F := Ideal) m c) (fun w => (dats (F := Ideal) m 0 c).arrAt w (cfgs 0).N)
      (Proc.devRef .tc main_v20) = outArr m c :=
    (Pipeline.withArrays_arr spec0 launch0.win.arr_inj c _ _ 3).trans (final3 m c)
  rw [hA]
  funext i
  rw [divAdd_apply, total_apply, outArr_sum, total_eq]
  rfl

/-- The kernel's run, read: the result at the loss of the kernel's total, the three arguments unchanged. -/
theorem run : θ_run defs (onTc (τ := τ) (main (F := Ideal))) ⟨m, fun _ => 0, ρ⟩ fun r => ∀ c : Dev nD,
      r.2.mem ((c.tc : Thread nD τ).loc main_v23)
        = (fun _ => lossOf (∑ I : Fin 8192, ∑ J : Fin 8192, kerTerm (rsdA m c) (lhsA m c) (rhsA m c) I J))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v23 (Pipeline.mem_restRefs_of main_v23 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Tail

end
-- ==== Proof.Head.lean ====
/-
  The arrays both programs compute before anything is compared, as functions of the three arguments:
  the row-wise log-softmax `logp` of the scores and `p = exp logp`; the one-hot matrix of the labels;
  its entries clipped into [lo, 1] with lo = 13743895 · 2⁻³⁷ (the f32 nearest 1e-4); the target distribution
  `q = clip(one-hot) · cw` (the class weights broadcast along the rows) and `logq = log q`.
  Nothing of the log-softmax or of the one-hot matrix is ever opened: all that is used is that a clipped
  entry is a positive real whatever it clips, so that `q` at (i, c) is a positive real times the class weight
  of c.
-/
import proofs.«144478_j53927609369071_2_alg».proof.ReferenceIdeal
import proofs.«144478_j53927609369071_2_alg».proof.Proof.Gen.ReferenceIdeal
import Idealize.ShloMosaic.PureOps.Ideal
import Idealize.ShloMosaic.Lib.ValueIdx
import Idealize.ShloMosaic.Lib.Pipeline.Value

noncomputable section

namespace Cert.PairKL

open Idealize.ShloMosaic Idealize.ShloMosaic.ValueIdx Cert.ReferenceIdeal Cert.ReferenceIdeal.Gen

/-- The row-wise log-softmax of the scores: `x - max_row x - log (Σ_row exp (x - max_row x))`. -/
def lpOf (x : FVec Ideal S8192x128 .f32) : FVec Ideal S8192x128 .f32 :=
  have mx : FVec Ideal S8192 .f32 := maximumf (broadcastInDim S8192 ![] bcast_S_S8192 (constant S_ .f32 0xFF800000#32))
    (Host.reduce FloatOps.maximumf x (constant S_ .f32 0xFF800000#32) reducesTo_S8192x128_S8192_d1 h_S_)
  have sh : FVec Ideal S8192x128 .f32 := subf x (broadcastInDim S8192x128 ![0, 1] bcast_S8192x1_S8192x128_0_1
    (broadcastInDim S8192x1 ![0] bcast_S8192_S8192x1_0 mx))
  have se : FVec Ideal S8192 .f32 := Host.reduceAdd (Host.exp sh) (constant S_ .f32 0x00000000#32) reducesTo_S8192x128_S8192_d1 h_S_
  subf sh (broadcastInDim S8192x128 ![0, 1] bcast_S8192x1_S8192x128_0_1
    (Host.log (broadcastInDim S8192x1 ![0] bcast_S8192_S8192x1_0 se)))

/-- The softmax itself: `exp` of the log-softmax. -/
def ppOf (x : FVec Ideal S8192x128 .f32) : FVec Ideal S8192x128 .f32 := Host.exp (lpOf x)

/-- The one-hot matrix of the labels: 1 where the label equals the class, 0 elsewhere. -/
def ohOf (t : IVec S8192 32) : FVec Ideal S8192x128 .f32 :=
  uitofp .f32 (cmpi .eq
    (broadcastInDim S8192x128 ![0, 1] bcast_S8192x1_S8192x128_0_1 (broadcastInDim S8192x1 ![0] bcast_S8192_S8192x1_0 t))
    (broadcastInDim S8192x128 ![0, 1] bcast_S1x128_S8192x128_0_1 (iotaInDim S1x128 32 1)))

/-- Entries clipped into [lo, 1]: `min 1 (max lo ·)`. -/
def clOf (oh : FVec Ideal S8192x128 .f32) : FVec Ideal S8192x128 .f32 :=
  minimumf (broadcastInDim S8192x128 ![] bcast_S_S8192x128 (constant S_ .f32 0x3F800000#32))
    (maximumf (broadcastInDim S8192x128 ![] bcast_S_S8192x128 (constant S_ .f32 0x38D1B717#32)) oh)

/-- The target distribution: clipped entries times the class weights, broadcast along the rows. -/
def qOf (oh : FVec Ideal S8192x128 .f32) (cw : FVec Ideal S128 .f32) : FVec Ideal S8192x128 .f32 :=
  mulf (clOf oh) (broadcastInDim S8192x128 ![0, 1] bcast_S1x128_S8192x128_0_1 (broadcastInDim S1x128 ![1] bcast_S128_S1x128_1 cw))

/-- Its logarithm. -/
def lqOf (oh : FVec Ideal S8192x128 .f32) (cw : FVec Ideal S128 .f32) : FVec Ideal S8192x128 .f32 := Host.log (qOf oh cw)

/-! ## The two clip bounds as reals -/

/-- The upper clip bound is 1. -/
theorem ofBits_one : Ideal.ofBits .f32 0x3F800000#32 = ((1 : ℝ) : EReal) := by
  simp [Ideal.ofBits, Ideal.ieee, -EReal.coe_mul] <;> norm_num

/-- The lower clip bound is the positive real 13743895 · 2⁻³⁷. -/
theorem ofBits_lo : Ideal.ofBits .f32 0x38D1B717#32 = (((13743895 : ℝ) * (2 : ℝ) ^ (-37 : Int) : ℝ) : EReal) := by
  simp [Ideal.ofBits, Ideal.ieee, -EReal.coe_mul] <;> norm_num

/-- A value clipped into [lo, 1] is a positive real, whatever extended real was clipped. -/
theorem clip_pos (x : EReal) :
    ∃ r : ℝ, 0 < r ∧ min (Ideal.ofBits .f32 0x3F800000#32) (max (Ideal.ofBits .f32 0x38D1B717#32) x) = (r : EReal) := by
  rw [ofBits_one, ofBits_lo]
  have hlo : (0 : ℝ) < (13743895 : ℝ) * (2 : ℝ) ^ (-37 : Int) := by positivity
  have hmin : ∀ a b : ℝ, min (a : EReal) (b : EReal) = ((min a b : ℝ) : EReal) := fun a b => (EReal.coe_strictMono.monotone.map_min).symm
  have hmax : ∀ a b : ℝ, max (a : EReal) (b : EReal) = ((max a b : ℝ) : EReal) := fun a b => (EReal.coe_strictMono.monotone.map_max).symm
  induction x using EReal.rec with
  | bot => exact ⟨min 1 ((13743895 : ℝ) * (2 : ℝ) ^ (-37 : Int)), lt_min one_pos hlo, by
      rw [max_eq_left bot_le, hmin]⟩
  | coe x => exact ⟨min 1 (max ((13743895 : ℝ) * (2 : ℝ) ^ (-37 : Int)) x), lt_min one_pos (lt_max_of_lt_left hlo), by
      rw [hmax, hmin]⟩
  | top => exact ⟨1, one_pos, by rw [max_eq_right le_top, min_eq_left le_top]⟩

/-! ## The arrays read at an index -/

/-- A clipped entry at any index is a positive real. -/
theorem clOf_pos (oh : FVec Ideal S8192x128 .f32) (i : S8192x128.Idx) : ∃ r : ℝ, 0 < r ∧ clOf oh i = (r : EReal) := by
  have e : clOf oh i = min (Ideal.ofBits .f32 0x3F800000#32) (max (Ideal.ofBits .f32 0x38D1B717#32) (oh i)) := by
    unfold clOf
    show min (broadcastInDim S8192x128 ![] bcast_S_S8192x128 (constant (F := Ideal) S_ .f32 0x3F800000#32) i)
      (max (broadcastInDim S8192x128 ![] bcast_S_S8192x128 (constant (F := Ideal) S_ .f32 0x38D1B717#32) i) (oh i)) = _
    rw [broadcastInDim_apply _ bcast_S_S8192x128 (constant (F := Ideal) S_ .f32 0x3F800000#32) i (fun a => a.elim0) (fun a => a.elim0),
      broadcastInDim_apply _ bcast_S_S8192x128 (constant (F := Ideal) S_ .f32 0x38D1B717#32) i (fun a => a.elim0) (fun a => a.elim0)]
    rfl
  rw [e]; exact clip_pos _

/-- The class weights broadcast along the rows read, at (i, c), the weight of class c. -/
theorem cwRows_apply (cw : FVec Ideal S128 .f32) (I : Fin 8192) (k : Fin 128) :
    broadcastInDim S8192x128 ![0, 1] bcast_S1x128_S8192x128_0_1 (broadcastInDim S1x128 ![1] bcast_S128_S1x128_1 cw) (ix2 I k) = cw (ix1 k) := by
  rw [broadcastInDim_apply _ bcast_S1x128_S8192x128_0_1 _ (ix2 I k) (ix2 (0 : Fin 1) k) (fun a => match a with
    | ⟨0, _⟩ => by show 0 = if (1 : Nat) = 1 then 0 else I.val; rw [if_pos rfl]
    | ⟨1, _⟩ => by show k.val = if (128 : Nat) = 1 then 0 else k.val; rw [if_neg (by decide)])]
  exact broadcastInDim_apply _ bcast_S128_S1x128_1 cw (ix2 (0 : Fin 1) k) (ix1 k) (fun a => match a with
    | ⟨0, _⟩ => by show k.val = if (128 : Nat) = 1 then 0 else k.val; rw [if_neg (by decide)])

/-- `q` at (i, c) is the clipped entry times the weight of class c. -/
theorem qOf_apply (oh : FVec Ideal S8192x128 .f32) (cw : FVec Ideal S128 .f32) (I : Fin 8192) (k : Fin 128) :
    qOf oh cw (ix2 I k) = clOf oh (ix2 I k) * cw (ix1 k) := by
  unfold qOf
  show clOf oh (ix2 I k) * _ = _
  rw [cwRows_apply]

/-- `logq` at an index is the logarithm of `q` there. -/
theorem lqOf_apply (oh : FVec Ideal S8192x128 .f32) (cw : FVec Ideal S128 .f32) (i : S8192x128.Idx) :
    lqOf oh cw i = Ideal.log (qOf oh cw i) := rfl

end Cert.PairKL

end
-- ==== Proof.KerHeadDefs.lean ====
/-
  The three arrays the kernel region reads, over the shared head arrays: the row-difference column
  Σ_c p·logp − Σ_c q·logq, the left operand [p | q] and the right operand [logp | −logq] (side by side along the
  class axis; the change of float format in front of the region is the identity on the extended reals).
-/
import proofs.«144478_j53927609369071_2_alg».proof.KernelIdeal
import proofs.«144478_j53927609369071_2_alg».proof.Proof.Gen.KernelIdeal
import proofs.«144478_j53927609369071_2_alg».proof.Proof.Head

noncomputable section

namespace Cert.KernelIdeal.Head

open Idealize.ShloMosaic Cert.KernelIdeal Cert.KernelIdeal.Gen Cert.PairKL

/-- The row-difference column: Σ_c p·logp − Σ_c q·logq of each row, as a column. -/
def rsdOf (s : FVec Ideal S8192x128 .f32) (t : IVec S8192 32) (cw : FVec Ideal S128 .f32) : FVec Ideal S8192x1 .f32 :=
  subf
    (broadcastInDim S8192x1 ![0] bcast_S8192_S8192x1_0
      (Host.reduceAdd (mulf (ppOf s) (lpOf s)) (constant S_ .f32 0x00000000#32) reducesTo_S8192x128_S8192_d1 h_S_))
    (broadcastInDim S8192x1 ![0] bcast_S8192_S8192x1_0
      (Host.reduceAdd (mulf (qOf (ohOf t) cw) (lqOf (ohOf t) cw)) (constant S_ .f32 0x00000000#32) reducesTo_S8192x128_S8192_d1 h_S_))

/-- The left operand: p and q side by side along the class axis (the change of float format is the identity). -/
def lhsOf (s : FVec Ideal S8192x128 .f32) (t : IVec S8192 32) (cw : FVec Ideal S128 .f32) : FVec Ideal S8192x256 .bf16 :=
  truncf .bf16 (concatenate S8192x256 1 [⟨S8192x128, ppOf s⟩, ⟨S8192x128, qOf (ohOf t) cw⟩] concatenates_S8192x128_S8192x128_S8192x256_d1) bitsLt_bf16_f32

/-- The right operand: logp and −logq side by side along the class axis. -/
def rhsOf (s : FVec Ideal S8192x128 .f32) (t : IVec S8192 32) (cw : FVec Ideal S128 .f32) : FVec Ideal S8192x256 .bf16 :=
  truncf .bf16 (concatenate S8192x256 1 [⟨S8192x128, lpOf s⟩, ⟨S8192x128, Host.negf (lqOf (ohOf t) cw)⟩] concatenates_S8192x128_S8192x128_S8192x256_d1) bitsLt_bf16_f32

end Cert.KernelIdeal.Head

end
-- ==== Proof.RefRun.lean ====
/-
  The reference program's run, read back in two stages so that no composed term is ever large.
  Its 58 host operations are split into a head of 34 (everything up to the four arrays `logp`, `p`, `q`, `logq`)
  and a tail of 24 (the pairwise sum over those four arrays). The tail's result is a term `tailVal` over the four
  arrays as atoms; the head's four results are the head arrays as functions of the arguments. Folding a
  concatenation is folding the tail after the head, so the result buffer of the whole run is `tailVal` of the four
  head arrays of the launch contents, and the argument buffers are unchanged.
-/
import proofs.«144478_j53927609369071_2_alg».proof.Proof.Gen.ReferenceIdeal
import proofs.«144478_j53927609369071_2_alg».proof.Proof.Head
import Idealize.ShloMosaic.Lib.StableHlo.Run

noncomputable section

namespace Cert.PairKL.Ref

open Cert.ReferenceIdeal Cert.ReferenceIdeal.Gen Idealize.ShloMosaic Idealize.ShloMosaic.TcCoe Idealize.SL.Sem Idealize.ShloMosaic.StableHlo

variable {F : FTy → Type} [FloatOps F]

/-- The first 34 operations, in order: the one-hot matrix, the two clip bounds and the clip, the class weights broadcast
    along the rows and `q`, the row-wise log-softmax `logp`, then `p = exp logp` and `logq = log q`. -/
abbrev opsHead : List (HloOp τ sig (Elt F)) :=
  [ TRef.unary (TRef.of (T := ⟨S8192, .i32⟩) main_arg1) (TRef.of (T := ⟨S8192x1, .i32⟩) main_call0_v0) (broadcastInDim S8192x1 ![0] bcast_S8192_S8192x1_0),
    TRef.nullary (TRef.of (T := ⟨S1x128, .i32⟩) main_call0_v1) (iotaInDim S1x128 32 1),
    TRef.unary (TRef.of (T := ⟨S8192x1, .i32⟩) main_call0_v0) (TRef.of (T := ⟨S8192x128, .i32⟩) main_call0_v2) (broadcastInDim S8192x128 ![0, 1] bcast_S8192x1_S8192x128_0_1),
    TRef.unary (TRef.of (T := ⟨S1x128, .i32⟩) main_call0_v1) (TRef.of (T := ⟨S8192x128, .i32⟩) main_call0_v3) (broadcastInDim S8192x128 ![0, 1] bcast_S1x128_S8192x128_0_1),
    TRef.binary (TRef.of (T := ⟨S8192x128, .i32⟩) main_call0_v2) (TRef.of (T := ⟨S8192x128, .i32⟩) main_call0_v3) (TRef.of (T := ⟨S8192x128, .i1⟩) main_call0_v4) (cmpi .eq),
    TRef.unary (TRef.of (T := ⟨S8192x128, .i1⟩) main_call0_v4) (TRef.of (T := ⟨S8192x128, .f32⟩) main_v0) (uitofp .f32),
    nullary main_cst (constant S_ .f32 0x38D1B717#32),
    nullary main_cst_0 (constant S_ .f32 0x3F800000#32),
    TRef.unary (TRef.of (T := ⟨S_, .f32⟩) main_cst) (TRef.of (T := ⟨S_, .f32⟩) main_call1_v0) id,
    TRef.unary (TRef.of (T := ⟨S_, .f32⟩) main_call1_v0) (TRef.of (T := ⟨S8192x128, .f32⟩) main_call1_v1) (broadcastInDim S8192x128 ![] bcast_S_S8192x128),
    TRef.binary (TRef.of (T := ⟨S8192x128, .f32⟩) main_call1_v1) (TRef.of (T := ⟨S8192x128, .f32⟩) main_v0) (TRef.of (T := ⟨S8192x128, .f32⟩) main_call1_v2) maximumf,
    TRef.unary (TRef.of (T := ⟨S_, .f32⟩) main_cst_0) (TRef.of (T := ⟨S_, .f32⟩) main_call1_v3) id,
    TRef.unary (TRef.of (T := ⟨S_, .f32⟩) main_call1_v3) (TRef.of (T := ⟨S8192x128, .f32⟩) main_call1_v4) (broadcastInDim S8192x128 ![] bcast_S_S8192x128),
    TRef.binary (TRef.of (T := ⟨S8192x128, .f32⟩) main_call1_v4) (TRef.of (T := ⟨S8192x128, .f32⟩) main_call1_v2) (TRef.of (T := ⟨S8192x128, .f32⟩) main_v1) minimumf,
    unary main_arg2 main_v2 (broadcastInDim S1x128 ![1] bcast_S128_S1x128_1 : (⟨S128, .f32⟩ : BufTy).Contents (Elt F) → (⟨S1x128, .f32⟩ : BufTy).Contents (Elt F)),
    unary main_v2 main_v3 (broadcastInDim S8192x128 ![0, 1] bcast_S1x128_S8192x128_0_1 : (⟨S1x128, .f32⟩ : BufTy).Contents (Elt F) → (⟨S8192x128, .f32⟩ : BufTy).Contents (Elt F)),
    binary main_v1 main_v3 main_v4 (mulf : (⟨S8192x128, .f32⟩ : BufTy).Contents (Elt F) → (⟨S8192x128, .f32⟩ : BufTy).Contents (Elt F) → (⟨S8192x128, .f32⟩ : BufTy).Contents (Elt F)),
    TRef.nullary (TRef.of (T := ⟨S_, .f32⟩) main_call2_cst) (constant S_ .f32 0xFF800000#32),
    TRef.binary (TRef.of (T := ⟨S8192x128, .f32⟩) main_arg0) (TRef.of (T := ⟨S_, .f32⟩) main_call2_cst) (TRef.of (T := ⟨S8192, .f32⟩) main_call2_v0) (fun x v => Host.reduce FloatOps.maximumf x v reducesTo_S8192x128_S8192_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S8192, .f32⟩) main_call2_v1) (broadcastInDim S8192 ![] bcast_S_S8192),
    TRef.binary (TRef.of (T := ⟨S8192, .f32⟩) main_call2_v1) (TRef.of (T := ⟨S8192, .f32⟩) main_call2_v0) (TRef.of (T := ⟨S8192, .f32⟩) main_call2_v2) maximumf,
    TRef.unary (TRef.of (T := ⟨S8192, .f32⟩) main_call2_v2) (TRef.of (T := ⟨S8192x1, .f32⟩) main_call2_v3) (broadcastInDim S8192x1 ![0] bcast_S8192_S8192x1_0),
    TRef.unary (TRef.of (T := ⟨S8192x1, .f32⟩) main_call2_v3) (TRef.of (T := ⟨S8192x128, .f32⟩) main_call2_v4) (broadcastInDim S8192x128 ![0, 1] bcast_S8192x1_S8192x128_0_1),
    TRef.binary (TRef.of (T := ⟨S8192x128, .f32⟩) main_arg0) (TRef.of (T := ⟨S8192x128, .f32⟩) main_call2_v4) (TRef.of (T := ⟨S8192x128, .f32⟩) main_call2_v5) subf,
    TRef.unary (TRef.of (T := ⟨S8192x128, .f32⟩) main_call2_v5) (TRef.of (T := ⟨S8192x128, .f32⟩) main_call2_v6) Host.exp,
    TRef.nullary (TRef.of (T := ⟨S_, .f32⟩) main_call2_cst_1) (constant S_ .f32 0x00000000#32),
    TRef.binary (TRef.of (T := ⟨S8192x128, .f32⟩) main_call2_v6) (TRef.of (T := ⟨S_, .f32⟩) main_call2_cst_1) (TRef.of (T := ⟨S8192, .f32⟩) main_call2_v7) (fun x v => Host.reduceAdd x v reducesTo_S8192x128_S8192_d1 h_S_),
    TRef.unary (TRef.of (T := ⟨S8192, .f32⟩) main_call2_v7) (TRef.of (T := ⟨S8192x1, .f32⟩) main_call2_v8) (broadcastInDim S8192x1 ![0] bcast_S8192_S8192x1_0),
    TRef.unary (TRef.of (T := ⟨S8192x1, .f32⟩) main_call2_v8) (TRef.of (T := ⟨S8192x1, .f32⟩) main_call2_v9) Host.log,
    TRef.unary (TRef.of (T := ⟨S8192x1, .f32⟩) main_call2_v9) (TRef.of (T := ⟨S8192x128, .f32⟩) main_call2_v10) (broadcastInDim S8192x128 ![0, 1] bcast_S8192x1_S8192x128_0_1),
    TRef.binary (TRef.of (T := ⟨S8192x128, .f32⟩) main_call2_v5) (TRef.of (T := ⟨S8192x128, .f32⟩) main_call2_v10) (TRef.of (T := ⟨S8192x128, .f32⟩) main_v5) subf,
    unary main_v5 main_v6 (Host.exp : (⟨S8192x128, .f32⟩ : BufTy).Contents (Elt F) → (⟨S8192x128, .f32⟩ : BufTy).Contents (Elt F)),
    unary main_v4 main_v7 (Host.log : (⟨S8192x128, .f32⟩ : BufTy).Contents (Elt F) → (⟨S8192x128, .f32⟩ : BufTy).Contents (Elt F)) ]

/-- The remaining 24 operations, in order: the two row sums and the two row-by-row contractions, their differences, the
    absolute value, the total, the added constant and the division. They read only `logp`, `p`, `q`, `logq`. -/
abbrev opsTail : List (HloOp τ sig (Elt F)) :=
  [ binary main_v6 main_v5 main_v8 (mulf : (⟨S8192x128, .f32⟩ : BufTy).Contents (Elt F) → (⟨S8192x128, .f32⟩ : BufTy).Contents (Elt F) → (⟨S8192x128, .f32⟩ : BufTy).Contents (Elt F)),
    nullary main_cst_1 (constant S_ .f32 0x00000000#32),
    binary main_v8 main_cst_1 main_v9 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    unary main_v9 main_v10 (broadcastInDim S8192x1 ![0] bcast_S8192_S8192x1_0 : (⟨S8192, .f32⟩ : BufTy).Contents (Elt F) → (⟨S8192x1, .f32⟩ : BufTy).Contents (Elt F)),
    unary main_v5 main_v11 ((transpose S128x8192 [1, 0] · transposes_S8192x128_S128x8192_1_0) : (⟨S8192x128, .f32⟩ : BufTy).Contents (Elt F) → (⟨S128x8192, .f32⟩ : BufTy).Contents (Elt F)),
    binary main_v6 main_v11 main_v12 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    unary main_v10 main_v13 (broadcastInDim S8192x8192 ![0, 1] bcast_S8192x1_S8192x8192_0_1 : (⟨S8192x1, .f32⟩ : BufTy).Contents (Elt F) → (⟨S8192x8192, .f32⟩ : BufTy).Contents (Elt F)),
    binary main_v13 main_v12 main_v14 (subf : (⟨S8192x8192, .f32⟩ : BufTy).Contents (Elt F) → (⟨S8192x8192, .f32⟩ : BufTy).Contents (Elt F) → (⟨S8192x8192, .f32⟩ : BufTy).Contents (Elt F)),
    binary main_v4 main_v7 main_v15 (mulf : (⟨S8192x128, .f32⟩ : BufTy).Contents (Elt F) → (⟨S8192x128, .f32⟩ : BufTy).Contents (Elt F) → (⟨S8192x128, .f32⟩ : BufTy).Contents (Elt F)),
    nullary main_cst_2 (constant S_ .f32 0x00000000#32),
    binary main_v15 main_cst_2 main_v16 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    unary main_v16 main_v17 (broadcastInDim S8192x1 ![0] bcast_S8192_S8192x1_0 : (⟨S8192, .f32⟩ : BufTy).Contents (Elt F) → (⟨S8192x1, .f32⟩ : BufTy).Contents (Elt F)),
    unary main_v7 main_v18 ((transpose S128x8192 [1, 0] · transposes_S8192x128_S128x8192_1_0) : (⟨S8192x128, .f32⟩ : BufTy).Contents (Elt F) → (⟨S128x8192, .f32⟩ : BufTy).Contents (Elt F)),
    binary main_v4 main_v18 main_v19 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    unary main_v17 main_v20 (broadcastInDim S8192x8192 ![0, 1] bcast_S8192x1_S8192x8192_0_1 : (⟨S8192x1, .f32⟩ : BufTy).Contents (Elt F) → (⟨S8192x8192, .f32⟩ : BufTy).Contents (Elt F)),
    binary main_v20 main_v19 main_v21 (subf : (⟨S8192x8192, .f32⟩ : BufTy).Contents (Elt F) → (⟨S8192x8192, .f32⟩ : BufTy).Contents (Elt F) → (⟨S8192x8192, .f32⟩ : BufTy).Contents (Elt F)),
    binary main_v14 main_v21 main_v22 (subf : (⟨S8192x8192, .f32⟩ : BufTy).Contents (Elt F) → (⟨S8192x8192, .f32⟩ : BufTy).Contents (Elt F) → (⟨S8192x8192, .f32⟩ : BufTy).Contents (Elt F)),
    unary main_v22 main_v23 (Host.absf : (⟨S8192x8192, .f32⟩ : BufTy).Contents (Elt F) → (⟨S8192x8192, .f32⟩ : BufTy).Contents (Elt F)),
    nullary main_cst_3 (constant S_ .f32 0x00000000#32),
    binary main_v23 main_cst_3 main_v24 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    nullary main_cst_4 (constant S_ .f32 0x38D1B717#32),
    binary main_cst_4 main_v24 main_v25 (addf : (⟨S_, .f32⟩ : BufTy).Contents (Elt F) → (⟨S_, .f32⟩ : BufTy).Contents (Elt F) → (⟨S_, .f32⟩ : BufTy).Contents (Elt F)),
    nullary main_cst_5 (constant S_ .f32 0x4C800000#32),
    binary main_v25 main_cst_5 main_v26 (Host.divf : (⟨S_, .f32⟩ : BufTy).Contents (Elt F) → (⟨S_, .f32⟩ : BufTy).Contents (Elt F) → (⟨S_, .f32⟩ : BufTy).Contents (Elt F)) ]

set_option maxRecDepth 8192 in
/-- The program is the straight line of its operations. -/
theorem main_eq (c : Dev nD) : main (F := F) c = seq (opsHead ++ opsTail) := rfl
theorem scopedRefs_eq : (Finset.univ.filter fun b : Idealize.ShloMosaic.Ref sig .tc => b.isScoped) = ∅ := by decide
theorem scopedSems_eq : (Finset.univ.filter fun sm : SemLoc sig => sm.isScoped .tc) = ∅ := by decide

set_option maxRecDepth 8192 in
/-- Every operation of the head touches TensorCore references only. -/
theorem opsHead_sub : (opsHead : List (HloOp τ sig (Elt F))).Forall fun op => op.bufs ⊆ tcRefs τ sig :=
  ⟨unary_bufs_sub .., nullary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub ..⟩
set_option maxRecDepth 8192 in
/-- Every operation of the tail touches TensorCore references only. -/
theorem opsTail_sub : (opsTail : List (HloOp τ sig (Elt F))).Forall fun op => op.bufs ⊆ tcRefs τ sig :=
  ⟨binary_bufs_sub .., nullary_bufs_sub .., binary_bufs_sub .., unary_bufs_sub .., unary_bufs_sub .., binary_bufs_sub .., unary_bufs_sub .., binary_bufs_sub .., binary_bufs_sub .., nullary_bufs_sub .., binary_bufs_sub .., unary_bufs_sub .., unary_bufs_sub .., binary_bufs_sub .., unary_bufs_sub .., binary_bufs_sub .., binary_bufs_sub .., unary_bufs_sub .., nullary_bufs_sub .., binary_bufs_sub .., nullary_bufs_sub .., binary_bufs_sub .., nullary_bufs_sub .., binary_bufs_sub ..⟩
/-- So does every operation of the whole line. -/
theorem ops_sub : (opsHead ++ opsTail : List (HloOp τ sig (Elt F))).Forall fun op => op.bufs ⊆ tcRefs τ sig :=
  List.forall_append.mpr ⟨opsHead_sub, opsTail_sub⟩

/-- Every operation of the head determines its results. -/
theorem opsHead_fresh : ∀ op ∈ (opsHead : List (HloOp τ sig (Elt F))), op.fresh = ∅ := by
  intro _ h; (repeat (cases h with | head => rfl | tail _ h => ?_)); exact nomatch h
/-- Every operation of the tail determines its results. -/
theorem opsTail_fresh : ∀ op ∈ (opsTail : List (HloOp τ sig (Elt F))), op.fresh = ∅ := by
  intro _ h; (repeat (cases h with | head => rfl | tail _ h => ?_)); exact nomatch h

/-- Folding a concatenation is folding its second part from where the first part ends. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- The tail's result as a term over the four head arrays: with `rs x y` the row sums of `x · y` and `x yᵀ` the
    row-by-row contraction, `(c₁ + (0 + Σ |(rs p logp − p logpᵀ) − (rs q logq − q logqᵀ)|)) / c₂`, spelt as the operations spell it. -/
def tailVal (lp pp q lq : FVec Ideal S8192x128 .f32) : FVec Ideal S_ .f32 :=
  Host.divf (addf (constant S_ .f32 0x38D1B717#32)
    (Host.reduceAdd (Host.absf (subf
        (subf (broadcastInDim S8192x8192 ![0, 1] bcast_S8192x1_S8192x8192_0_1 (broadcastInDim S8192x1 ![0] bcast_S8192_S8192x1_0
            (Host.reduceAdd (mulf pp lp) (constant S_ .f32 0x00000000#32) reducesTo_S8192x128_S8192_d1 h_S_)))
          (Host.dotGeneral dot_S8192x128_S128x8192_S8192x8192_1_0_0_1_n_n none pp
            (transpose S128x8192 [1, 0] lp transposes_S8192x128_S128x8192_1_0)))
        (subf (broadcastInDim S8192x8192 ![0, 1] bcast_S8192x1_S8192x8192_0_1 (broadcastInDim S8192x1 ![0] bcast_S8192_S8192x1_0
            (Host.reduceAdd (mulf q lq) (constant S_ .f32 0x00000000#32) reducesTo_S8192x128_S8192_d1 h_S_)))
          (Host.dotGeneral dot_S8192x128_S128x8192_S8192x8192_1_0_0_1_n_n none q
            (transpose S128x8192 [1, 0] lq transposes_S8192x128_S128x8192_1_0)))))
      (constant S_ .f32 0x00000000#32) reducesTo_S8192x8192_S_d0_1 h_S_))
    (constant S_ .f32 0x4C800000#32)

/-- From ANY contents `W`, the tail leaves in the result buffer `tailVal` of what `W` holds at the four head arrays. -/
theorem tail_eq (W : Valuation τ sig (Elt Ideal)) :
    after (opsTail (F := Ideal)) W (Proc.devRef .tc main_v26)
      = tailVal (W (Proc.devRef .tc main_v5)) (W (Proc.devRef .tc main_v6)) (W (Proc.devRef .tc main_v4)) (W (Proc.devRef .tc main_v7)) := by
  after_results_simp
  rfl

/-- A value moved to a buffer's own type and back is the value: the two transports along one equation cancel. -/
theorem ofBuf_toBuf {sig : RefSig} {Val : EltTy → Type} {T : BufTy} (x : TRef sig T) (v : T.Contents Val) :
    x.ofBuf (x.toBuf v) = v := by
  obtain ⟨r, h, hd, hu⟩ := x
  subst h
  rfl

/-- The scores' buffer read at the scores' type is the buffer's contents. -/
theorem arg0_ofBuf (V : Valuation τ sig (Elt Ideal)) :
    (TRef.of (T := ⟨S8192x128, .f32⟩) main_arg0).ofBuf (V (Proc.devRef .tc main_arg0))
      = (V (Proc.devRef .tc main_arg0) : FVec Ideal S8192x128 .f32) := rfl

set_option maxRecDepth 8192 in
/-- From ANY contents `V`, the head leaves the log-softmax of the scores in `logp`'s buffer … -/
theorem head_lp (V : Valuation τ sig (Elt Ideal)) :
    after (opsHead (F := Ideal)) V (Proc.devRef .tc main_v5) = lpOf (V (Proc.devRef .tc main_arg0)) := by
  after_results_simp
  simp only [ofBuf_toBuf]
  refine (cast_eq _ _).trans ?_
  rw [arg0_ofBuf]
  unfold lpOf
  rfl
set_option maxRecDepth 8192 in
/-- … its exponential in `p`'s … -/
theorem head_pp (V : Valuation τ sig (Elt Ideal)) :
    after (opsHead (F := Ideal)) V (Proc.devRef .tc main_v6) = ppOf (V (Proc.devRef .tc main_arg0)) := by
  after_results_simp
  simp only [ofBuf_toBuf]
  unfold ppOf
  refine congrArg Host.exp ?_
  refine (cast_eq _ _).trans ?_
  rw [arg0_ofBuf]
  unfold lpOf
  rfl
/-- … the clipped one-hot matrix times the class weights in `q`'s … -/
theorem head_q (V : Valuation τ sig (Elt Ideal)) :
    after (opsHead (F := Ideal)) V (Proc.devRef .tc main_v4) = qOf (ohOf (V (Proc.devRef .tc main_arg1))) (V (Proc.devRef .tc main_arg2)) := by
  after_results_simp
  rfl
/-- … and its logarithm in `logq`'s. -/
theorem head_lq (V : Valuation τ sig (Elt Ideal)) :
    after (opsHead (F := Ideal)) V (Proc.devRef .tc main_v7) = lqOf (ohOf (V (Proc.devRef .tc main_arg1))) (V (Proc.devRef .tc main_arg2)) := by
  after_results_simp
  rfl

/-- No operation writes an argument: after the whole line each argument buffer holds what it held. -/
theorem arg_eq (V : Valuation τ sig (Elt Ideal)) :
    after (opsHead (F := Ideal) ++ opsTail) V (Proc.devRef .tc main_arg0) = V (Proc.devRef .tc main_arg0)
    ∧ after (opsHead (F := Ideal) ++ opsTail) V (Proc.devRef .tc main_arg1) = V (Proc.devRef .tc main_arg1)
    ∧ after (opsHead (F := Ideal) ++ opsTail) V (Proc.devRef .tc main_arg2) = V (Proc.devRef .tc main_arg2) := by
  rw [after_append]
  refine ⟨?_, ?_, ?_⟩ <;> after_results_simp

/-- On every device, from any memory with zero counters: every weakly fair execution of the reference terminates with the
    result buffer at `tailVal` of the four head arrays of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26)
        = tailVal (lpOf (m ((c.tc : Thread nD τ).loc main_arg0))) (ppOf (m ((c.tc : Thread nD τ).loc main_arg0)))
            (qOf (ohOf (m ((c.tc : Thread nD τ).loc main_arg1))) (m ((c.tc : Thread nD τ).loc main_arg2)))
            (lqOf (ohOf (m ((c.tc : Thread nD τ).loc main_arg1))) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v26).trans (by
          rw [after_append, tail_eq, head_lp, head_pp, head_q, head_lq]),
        (h c main_arg0).trans (arg_eq (launchContents m c)).1,
        (h c main_arg1).trans (arg_eq (launchContents m c)).2.1,
        (h c main_arg2).trans (arg_eq (launchContents m c)).2.2⟩)
    (run_seq scopedRefs_eq scopedSems_eq defs main (fun _ => opsHead ++ opsTail) main_eq (fun _ => ops_sub) m ρ
      (fun _ op h => (List.mem_append.mp h).elim (opsHead_fresh op) (opsTail_fresh op)))

end Cert.PairKL.Ref

end
-- ==== Proof.KerHead.lean ====
/-
  The host lines before the region, evaluated: the region finds its three input arrays at the row-difference column,
  the left operand and the right operand of the arguments. The lines are the operations the shared head arrays are
  made of; a value written inside an outlined function and read outside it (or the other way round) passes through a
  change of the buffer's type that is the identity, removed before the two sides are compared.
-/
import proofs.«144478_j53927609369071_2_alg».proof.Proof.Gen.KernelIdeal.Frame
import proofs.«144478_j53927609369071_2_alg».proof.Proof.KerHeadDefs
import proofs.«144478_j53927609369071_2_alg».proof.Proof.RefRun
import Idealize.ShloMosaic.Lib.StableHlo.Run

noncomputable section

open Idealize.ShloMosaic Idealize.ShloMosaic.TcCoe Idealize.SL.Sem

namespace Cert.KernelIdeal.Head

open Cert.KernelIdeal Cert.KernelIdeal.Gen Cert.PairKL Idealize.ShloMosaic.StableHlo

variable (m : (ℓ : Loc nD τ sig) → Buf (Elt Ideal) ℓ)

/-! ## A typed reference's change of type is the identity -/

theorem tb_v0 (v : FVec Ideal S8192x128 .f32) : (TRef.of (sig := sig) (T := ⟨S8192x128, .f32⟩) main_v0).toBuf (Val := Elt Ideal) v = v := rfl
theorem tb_v2 (v : FVec Ideal S8192x128 .f32) : (TRef.of (sig := sig) (T := ⟨S8192x128, .f32⟩) main_v2).toBuf (Val := Elt Ideal) v = v := rfl
theorem tb_v3 (v : FVec Ideal S8192x128 .f32) : (TRef.of (sig := sig) (T := ⟨S8192x128, .f32⟩) main_v3).toBuf (Val := Elt Ideal) v = v := rfl
theorem ob_v2 (v : FVec Ideal S8192x128 .f32) : (TRef.of (sig := sig) (T := ⟨S8192x128, .f32⟩) main_v2).ofBuf (Val := Elt Ideal) v = v := rfl
theorem ob_cst (v : FVec Ideal S_ .f32) : (TRef.of (sig := sig) (T := ⟨S_, .f32⟩) main_cst).ofBuf (Val := Elt Ideal) v = v := rfl
theorem ob_cst_0 (v : FVec Ideal S_ .f32) : (TRef.of (sig := sig) (T := ⟨S_, .f32⟩) main_cst_0).ofBuf (Val := Elt Ideal) v = v := rfl
theorem ob_arg0 (v : FVec Ideal S8192x128 .f32) : (TRef.of (sig := sig) (T := ⟨S8192x128, .f32⟩) main_arg0).ofBuf (Val := Elt Ideal) v = v := rfl
theorem ob_arg1 (v : IVec S8192 32) : (TRef.of (sig := sig) (T := ⟨S8192, .i32⟩) main_arg1).ofBuf (Val := Elt Ideal) v = v := rfl

/-- Two [8192, 128] arrays side by side along the class axis, as a function of the two pieces. -/
def cat2 (a b : FVec Ideal S8192x128 .f32) : FVec Ideal S8192x256 .f32 :=
  concatenate S8192x256 1 [⟨S8192x128, a⟩, ⟨S8192x128, b⟩] concatenates_S8192x128_S8192x128_S8192x256_d1

set_option maxRecDepth 8192 in
set_option maxHeartbeats 2000000 in
/-- The row-difference column as the region finds it. -/
theorem V_rsd (c : Dev nD) : (V (F := Ideal) m c main_v14 : S8192x1.Idx → EReal)
    = rsdOf (m ((c : Thread nD τ).loc main_arg0)) (m ((c : Thread nD τ).loc main_arg1)) (m ((c : Thread nD τ).loc main_arg2)) := by
  dsimp only [Gen.V, Gen.V0]
  simp only [hostOps0, hostOps0_1, hostOps0_2, hostOps0_3, hostOps0_4, hostOps0_5, List.flatten_cons, List.flatten_nil, List.append_nil, List.cons_append, List.nil_append]
  after_results_simp
  simp only [Cert.PairKL.Ref.ofBuf_toBuf, tb_v0, tb_v2, tb_v3, ob_v2, ob_cst, ob_cst_0, ob_arg0, ob_arg1]
  unfold rsdOf lpOf ppOf qOf lqOf ohOf clOf
  rfl

set_option maxRecDepth 8192 in
set_option maxHeartbeats 2000000 in
/-- The left operand as the region finds it. -/
theorem V_lhs (c : Dev nD) : (V (F := Ideal) m c main_v16 : S8192x256.Idx → EReal)
    = lhsOf (m ((c : Thread nD τ).loc main_arg0)) (m ((c : Thread nD τ).loc main_arg1)) (m ((c : Thread nD τ).loc main_arg2)) := by
  dsimp only [Gen.V, Gen.V0]
  simp only [hostOps0, hostOps0_1, hostOps0_2, hostOps0_3, hostOps0_4, hostOps0_5, List.flatten_cons, List.flatten_nil, List.append_nil, List.cons_append, List.nil_append]
  after_results_simp
  show truncf .bf16 (cat2 _ _) bitsLt_bf16_f32 = _
  after_results_simp
  simp only [Cert.PairKL.Ref.ofBuf_toBuf, tb_v0, tb_v2, tb_v3, ob_v2, ob_cst, ob_cst_0, ob_arg0, ob_arg1]
  unfold lhsOf cat2 ppOf lpOf qOf clOf ohOf
  rfl

set_option maxRecDepth 8192 in
set_option maxHeartbeats 2000000 in
/-- The right operand as the region finds it. -/
theorem V_rhs (c : Dev nD) : (V (F := Ideal) m c main_v19 : S8192x256.Idx → EReal)
    = rhsOf (m ((c : Thread nD τ).loc main_arg0)) (m ((c : Thread nD τ).loc main_arg1)) (m ((c : Thread nD τ).loc main_arg2)) := by
  dsimp only [Gen.V, Gen.V0]
  simp only [hostOps0, hostOps0_1, hostOps0_2, hostOps0_3, hostOps0_4, hostOps0_5, List.flatten_cons, List.flatten_nil, List.append_nil, List.cons_append, List.nil_append]
  after_results_simp
  show truncf .bf16 (cat2 _ _) bitsLt_bf16_f32 = _
  after_results_simp
  simp only [Cert.PairKL.Ref.ofBuf_toBuf, tb_v0, tb_v2, tb_v3, ob_v2, ob_cst, ob_cst_0, ob_arg0, ob_arg1]
  unfold rhsOf cat2 lpOf lqOf qOf clOf ohOf
  rfl

end Cert.KernelIdeal.Head

end
-- ==== Proof.RefValue.lean ====
/-
  The value of the reference's tail. Over the four head arrays `logp`, `p`, `q`, `logq` (each [8192, 128]) the tail computes
      (c₁ + (0 + Σ_{I, J} |(Σ_c p_I logp_I − Σ_c p_I logp_J) − (Σ_c q_I logq_I − Σ_c q_I logq_J)|)) / c₂
  over the 8192 × 8192 pairs of rows. Each operation is read at an index: a row sum from 0 is the sum over the 128 classes,
  a column broadcast along the rows reads the column, the transpose swaps the coordinates, the contraction is the sum over the
  classes of the products, the absolute value is `max z (-z)`, and the total from 0 is the double sum over the coordinates.
-/
import proofs.«144478_j53927609369071_2_alg».proof.Proof.RefRun
import proofs.«144478_j53927609369071_2_alg».proof.Proof.Spec
import Idealize.ShloMosaic.Lib.Pipeline.Value
import Idealize.ShloMosaic.Lib.ValueIdx
import Idealize.ShloMosaic.PureOps.Ideal.Laws

noncomputable section

namespace Cert.PairKL.Ref

open Cert.ReferenceIdeal Cert.ReferenceIdeal.Gen Idealize.ShloMosaic Idealize.ShloMosaic.ValueIdx
open scoped BigOperators

/-! ## One operation at a time, at explicit coordinates -/

/-- A column broadcast along the rows, [8192] → [8192, 1] → [8192, 8192], reads at (I, J) the column's entry I. -/
theorem bcastRows_apply (r : FVec Ideal S8192 .f32) (I J : Fin 8192) :
    broadcastInDim S8192x8192 ![0, 1] bcast_S8192x1_S8192x8192_0_1 (broadcastInDim S8192x1 ![0] bcast_S8192_S8192x1_0 r) (ix2 I J)
      = r (ix1 I) := by
  rw [broadcastInDim_apply _ bcast_S8192x1_S8192x8192_0_1 _ (ix2 I J) (ix2 I (0 : Fin 1)) (fun a => match a with
    | ⟨0, _⟩ => by show I.val = if (8192 : Nat) = 1 then 0 else I.val; rw [if_neg (by decide)]
    | ⟨1, _⟩ => by show 0 = if (1 : Nat) = 1 then 0 else J.val; rw [if_pos rfl])]
  exact broadcastInDim_apply _ bcast_S8192_S8192x1_0 r (ix2 I (0 : Fin 1)) (ix1 I) (fun a => match a with
    | ⟨0, _⟩ => by show I.val = if (8192 : Nat) = 1 then 0 else I.val; rw [if_neg (by decide)])

/-- The row sums from the initial value 0: entry I is the sum of row I over the 128 classes. -/
theorem rowSum_apply (z : FVec Ideal S8192x128 .f32) (I : Fin 8192) :
    Host.reduceAdd z (constant S_ .f32 0x00000000#32) reducesTo_S8192x128_S8192_d1 h_S_ (ix1 I) = ∑ k : Fin 128, z (ix2 I k) := by
  simp only [Host.reduceAdd, Ideal.hostReduceAdd_def]
  rw [Ideal.hostReduceAdd_single reducesTo_S8192x128_S8192_d1 (by decide), constant_apply, Ideal.ofBits_zero_f32, zero_add]
  refine Finset.sum_congr rfl fun k _ => ?_
  exact congrArg z (funext fun a => Fin.ext (by match a with | ⟨0, _⟩ => rfl | ⟨1, _⟩ => rfl))

/-- The transpose [8192, 128] → [128, 8192] reads at (k, J) the operand at (J, k). -/
theorem transposeT_apply (y : FVec Ideal S8192x128 .f32) (k : Fin 128) (J : Fin 8192) :
    transpose S128x8192 [1, 0] y transposes_S8192x128_S128x8192_1_0 (ix2 k J) = y (ix2 J k) :=
  transpose_apply [1, 0] y transposes_S8192x128_S128x8192_1_0 (ix2 k J) (ix2 J k) (fun b => match b with
    | ⟨0, _⟩ => rfl
    | ⟨1, _⟩ => rfl)

/-- The contraction's operand indices: the left operand is read at (row of the result, contraction coordinate) … -/
theorem dot_lhs_0 (i : S8192x8192.Idx) (c : dot_S8192x128_S128x8192_S8192x8192_1_0_0_1_n_n.contr.Idx) : (dot_S8192x128_S128x8192_S8192x8192_1_0_0_1_n_n.lhsIdx i c 0).val = (i 0).val := by
  unfold DotDims.lhsIdx
  rw [dif_neg (show ¬(0 : Fin S8192x128.rank) ∈ dot_S8192x128_S128x8192_S8192x8192_1_0_0_1_n_n.lhsBatch by decide),
    dif_pos (show (0 : Fin S8192x128.rank) ∈ dot_S8192x128_S128x8192_S8192x8192_1_0_0_1_n_n.lhsNonContracting by decide)]
  rfl
theorem dot_lhs_1 (i : S8192x8192.Idx) (c : dot_S8192x128_S128x8192_S8192x8192_1_0_0_1_n_n.contr.Idx) : (dot_S8192x128_S128x8192_S8192x8192_1_0_0_1_n_n.lhsIdx i c 1).val = (c ⟨0, by decide⟩).val :=
  dot_S8192x128_S128x8192_S8192x8192_1_0_0_1_n_n.lhsIdx_val_of_single rfl i c
/-- … and the right operand at (contraction coordinate, column of the result). -/
theorem dot_rhs_0 (i : S8192x8192.Idx) (c : dot_S8192x128_S128x8192_S8192x8192_1_0_0_1_n_n.contr.Idx) : (dot_S8192x128_S128x8192_S8192x8192_1_0_0_1_n_n.rhsIdx i c 0).val = (c ⟨0, by decide⟩).val :=
  dot_S8192x128_S128x8192_S8192x8192_1_0_0_1_n_n.rhsIdx_val_of_single rfl i c
theorem dot_rhs_1 (i : S8192x8192.Idx) (c : dot_S8192x128_S128x8192_S8192x8192_1_0_0_1_n_n.contr.Idx) : (dot_S8192x128_S128x8192_S8192x8192_1_0_0_1_n_n.rhsIdx i c 1).val = (i 1).val := by
  unfold DotDims.rhsIdx
  rw [dif_neg (show ¬(1 : Fin S128x8192.rank) ∈ dot_S8192x128_S128x8192_S8192x8192_1_0_0_1_n_n.rhsBatch by decide),
    dif_pos (show (1 : Fin S128x8192.rank) ∈ dot_S8192x128_S128x8192_S8192x8192_1_0_0_1_n_n.rhsNonContracting by decide)]
  rfl

/-- The [8192, 128] × [128, 8192] contraction reads at (I, J) the sum over the 128 classes of left (I, k) times right (k, J). -/
theorem dot_apply (x : FVec Ideal S8192x128 .f32) (z : FVec Ideal S128x8192 .f32) (I J : Fin 8192) :
    Host.dotGeneral dot_S8192x128_S128x8192_S8192x8192_1_0_0_1_n_n none x z (ix2 I J) = ∑ k : Fin 128, x (ix2 I k) * z (ix2 k J) := by
  simp only [Host.dotGeneral]
  rw [Ideal.dotGeneral_apply, ← Equiv.sum_comp (contrEquiv1 dot_S8192x128_S128x8192_S8192x8192_1_0_0_1_n_n 128 rfl rfl).symm]
  refine Finset.sum_congr rfl fun k _ => ?_
  have hk := contrEquiv1_symm_val dot_S8192x128_S128x8192_S8192x8192_1_0_0_1_n_n 128 rfl rfl k
  have el : dot_S8192x128_S128x8192_S8192x8192_1_0_0_1_n_n.lhsIdx (ix2 I J) ((contrEquiv1 dot_S8192x128_S128x8192_S8192x8192_1_0_0_1_n_n 128 rfl rfl).symm k) = ix2 I k := funext fun a => Fin.ext (by
    match a with
    | ⟨0, _⟩ => exact dot_lhs_0 _ _
    | ⟨1, _⟩ => exact (dot_lhs_1 _ _).trans hk)
  have er : dot_S8192x128_S128x8192_S8192x8192_1_0_0_1_n_n.rhsIdx (ix2 I J) ((contrEquiv1 dot_S8192x128_S128x8192_S8192x8192_1_0_0_1_n_n 128 rfl rfl).symm k) = ix2 k J := funext fun a => Fin.ext (by
    match a with
    | ⟨0, _⟩ => exact (dot_rhs_0 _ _).trans hk
    | ⟨1, _⟩ => exact dot_rhs_1 _ _)
  rw [el, er]

/-- The total from the initial value 0 over the [8192, 8192] pairs, as the double sum over the coordinates. -/
theorem total_apply (X : FVec Ideal S8192x8192 .f32) (i : S_.Idx) :
    Host.reduceAdd X (constant S_ .f32 0x00000000#32) reducesTo_S8192x8192_S_d0_1 h_S_ i
      = Ideal.ofBits .f32 0x00000000#32 + ∑ I : Fin 8192, ∑ J : Fin 8192, X (ix2 I J) := by
  simp only [Host.reduceAdd, Ideal.hostReduceAdd_def]
  rw [Ideal.hostReduceAdd_total reducesTo_S8192x8192_S_d0_1 (fun b => b.elim0) X _ i, sum_idx2]
  rfl

/-! ## Assembled -/

/-- Row sums of `x · y` broadcast along the rows, minus the row-by-row contraction of `x` with `y`: at (I, J) it is
    `Σ_c x_I y_I − Σ_c x_I y_J`. -/
theorem pairDiff_apply (x y : FVec Ideal S8192x128 .f32) (I J : Fin 8192) :
    subf (broadcastInDim S8192x8192 ![0, 1] bcast_S8192x1_S8192x8192_0_1 (broadcastInDim S8192x1 ![0] bcast_S8192_S8192x1_0
          (Host.reduceAdd (mulf x y) (constant S_ .f32 0x00000000#32) reducesTo_S8192x128_S8192_d1 h_S_)))
        (Host.dotGeneral dot_S8192x128_S128x8192_S8192x8192_1_0_0_1_n_n none x (transpose S128x8192 [1, 0] y transposes_S8192x128_S128x8192_1_0)) (ix2 I J)
      = rowDot (fun I k => x (ix2 I k)) (fun I k => y (ix2 I k)) I I - rowDot (fun I k => x (ix2 I k)) (fun I k => y (ix2 I k)) I J := by
  rw [subf_apply, bcastRows_apply, rowSum_apply, dot_apply]
  unfold rowDot
  refine congrArg₂ (· - ·) (Finset.sum_congr rfl fun k _ => rfl) (Finset.sum_congr rfl fun k _ => ?_)
  rw [transposeT_apply]

/-- The absolute value of a difference at an index. -/
theorem absDiff_apply (A B : FVec Ideal S8192x8192 .f32) (j : S8192x8192.Idx) :
    Host.absf (subf A B) j = max (A j - B j) (-(A j - B j)) := rfl

/-- The last three operations at the one index of a scalar: the constant added, the quotient by the other constant. -/
theorem divAdd_apply (R : FVec Ideal S_ .f32) (i : S_.Idx) :
    Host.divf (addf (constant S_ .f32 0x38D1B717#32) R) (constant S_ .f32 0x4C800000#32) i
      = Ideal.div (Ideal.ofBits .f32 0x38D1B717#32 + R i) (Ideal.ofBits .f32 0x4C800000#32) := rfl

/-- THE TAIL'S VALUE: the loss of the double sum, over the pairs of rows, of the reference's summand over the four head arrays read
    by coordinates. -/
theorem tailVal_eq (lp pp q lq : FVec Ideal S8192x128 .f32) :
    tailVal lp pp q lq = fun _ => lossOf (∑ I : Fin 8192, ∑ J : Fin 8192,
      refTerm (fun I k => pp (ix2 I k)) (fun I k => lp (ix2 I k)) (fun I k => q (ix2 I k)) (fun I k => lq (ix2 I k)) I J) := by
  funext i
  unfold tailVal lossOf
  rw [divAdd_apply, total_apply]
  refine congrArg (fun t => Ideal.div (Ideal.ofBits .f32 0x38D1B717#32 + (Ideal.ofBits .f32 0x00000000#32 + t)) (Ideal.ofBits .f32 0x4C800000#32)) ?_
  refine Finset.sum_congr rfl fun I _ => Finset.sum_congr rfl fun J _ => ?_
  rw [absDiff_apply, pairDiff_apply, pairDiff_apply]
  rfl

end Cert.PairKL.Ref

end
-- ==== Proof.KerHeadValue.lean ====
/-
  The three arrays the kernel region reads, at an index. The row-difference column at row I is
  `Σ_c p_I logp_I − Σ_c q_I logq_I`: each column is a row sum from 0 written as a column. The left operand `[p | q]` reads
  `p` on the first 128 classes and `q` on the last 128; the right operand `[logp | −logq]` reads `logp` and `−logq`.
  The change of float format in front is the identity on the extended reals.
-/
import proofs.«144478_j53927609369071_2_alg».proof.Proof.KerHeadDefs
import proofs.«144478_j53927609369071_2_alg».proof.Proof.Head
import proofs.«144478_j53927609369071_2_alg».proof.Proof.Spec
import proofs.«144478_j53927609369071_2_alg».proof.Proof.RefValue
import Idealize.ShloMosaic.Lib.ValueIdx
import Idealize.ShloMosaic.Lib.Pipeline.Value
import Idealize.ShloMosaic.PureOps.Ideal.Laws

noncomputable section

namespace Cert.KernelIdeal.Head

open Idealize.ShloMosaic Idealize.ShloMosaic.ValueIdx Cert.KernelIdeal Cert.KernelIdeal.Gen Cert.PairKL
open scoped BigOperators

/-! ## One operation at a time -/

/-- A vector [8192] written as a column [8192, 1] reads at (I, 0) its entry I. -/
theorem col_apply (r : FVec Ideal S8192 .f32) (I : Fin 8192) :
    broadcastInDim S8192x1 ![0] bcast_S8192_S8192x1_0 r (ix2 I (0 : Fin 1)) = r (ix1 I) :=
  broadcastInDim_apply _ bcast_S8192_S8192x1_0 r (ix2 I (0 : Fin 1)) (ix1 I) (fun a => match a with
    | ⟨0, _⟩ => by show I.val = if (8192 : Nat) = 1 then 0 else I.val; rw [if_neg (by decide)])

/-- The row sums from the initial value 0: entry I is the sum of row I over the 128 classes. -/
theorem rowSum_apply (z : FVec Ideal S8192x128 .f32) (I : Fin 8192) :
    Host.reduceAdd z (constant S_ .f32 0x00000000#32) reducesTo_S8192x128_S8192_d1 h_S_ (ix1 I) = ∑ k : Fin 128, z (ix2 I k) := by
  simp only [Host.reduceAdd, Ideal.hostReduceAdd_def]
  rw [Ideal.hostReduceAdd_single reducesTo_S8192x128_S8192_d1 (by decide), constant_apply, Ideal.ofBits_zero_f32, zero_add]
  refine Finset.sum_congr rfl fun k _ => ?_
  exact congrArg z (funext fun a => Fin.ext (by match a with | ⟨0, _⟩ => rfl | ⟨1, _⟩ => rfl))

/-- Two [8192, 128] arrays side by side along the class axis read the first on the first 128 classes … -/
theorem pair_left (x₁ x₂ : FVec Ideal S8192x128 .f32) (I : Fin 8192) (k : Fin 128) :
    concatenate S8192x256 1 [⟨S8192x128, x₁⟩, ⟨S8192x128, x₂⟩] concatenates_S8192x128_S8192x128_S8192x256_d1 (ix2 I (Fin.castAdd 128 k : Fin 256)) = x₁ (ix2 I k) :=
  concatenate_pair_apply_left (t := S8192x256) (s₁ := S8192x128) (s₂ := S8192x128) 1 x₁ x₂ concatenates_S8192x128_S8192x128_S8192x256_d1
    (ix2 I (Fin.castAdd 128 k : Fin 256)) rfl (ix2 I k) (fun b => match b with
      | ⟨0, _⟩ => rfl
      | ⟨1, _⟩ => rfl)

/-- … and the second on the last 128. -/
theorem pair_right (x₁ x₂ : FVec Ideal S8192x128 .f32) (I : Fin 8192) (k : Fin 128) :
    concatenate S8192x256 1 [⟨S8192x128, x₁⟩, ⟨S8192x128, x₂⟩] concatenates_S8192x128_S8192x128_S8192x256_d1 (ix2 I (Fin.natAdd 128 k : Fin 256)) = x₂ (ix2 I k) :=
  concatenate_pair_apply_right (t := S8192x256) (s₁ := S8192x128) (s₂ := S8192x128) 1 x₁ x₂ concatenates_S8192x128_S8192x128_S8192x256_d1
    (ix2 I (Fin.natAdd 128 k : Fin 256)) rfl rfl (ix2 I k)
    (fun b hb => match b, hb with
      | ⟨0, _⟩, _ => rfl
      | ⟨1, _⟩, hb => absurd rfl hb)
    (by show k.val + 128 = 128 + k.val; omega)

/-! ## The three arrays -/

variable (s : FVec Ideal S8192x128 .f32) (t : IVec S8192 32) (cw : FVec Ideal S128 .f32)

/-- The row-difference column at row I: `Σ_c p_I logp_I − Σ_c q_I logq_I`. -/
theorem rsd_apply (I : Fin 8192) :
    rsdOf s t cw (ix2 I (0 : Fin 1))
      = rowDot (fun I k => ppOf s (ix2 I k)) (fun I k => lpOf s (ix2 I k)) I I
        - rowDot (fun I k => qOf (ohOf t) cw (ix2 I k)) (fun I k => lqOf (ohOf t) cw (ix2 I k)) I I := by
  unfold rsdOf
  rw [subf_apply, col_apply, col_apply, rowSum_apply, rowSum_apply]
  rfl

/-- The left operand on the first 128 classes is `p` … -/
theorem lhs_left (I : Fin 8192) (k : Fin 128) :
    lhsOf s t cw (ix2 I (Fin.castAdd 128 k : Fin 256)) = ppOf s (ix2 I k) := by
  unfold lhsOf
  exact pair_left (ppOf s) (qOf (ohOf t) cw) I k

/-- … and on the last 128 it is `q`. -/
theorem lhs_right (I : Fin 8192) (k : Fin 128) :
    lhsOf s t cw (ix2 I (Fin.natAdd 128 k : Fin 256)) = qOf (ohOf t) cw (ix2 I k) := by
  unfold lhsOf
  exact pair_right (ppOf s) (qOf (ohOf t) cw) I k

/-- The right operand on the first 128 classes is `logp` … -/
theorem rhs_left (J : Fin 8192) (k : Fin 128) :
    rhsOf s t cw (ix2 J (Fin.castAdd 128 k : Fin 256)) = lpOf s (ix2 J k) := by
  unfold rhsOf
  exact pair_left (lpOf s) (Host.negf (lqOf (ohOf t) cw)) J k

/-- … and on the last 128 it is `−logq`. -/
theorem rhs_right (J : Fin 8192) (k : Fin 128) :
    rhsOf s t cw (ix2 J (Fin.natAdd 128 k : Fin 256)) = -(lqOf (ohOf t) cw (ix2 J k)) := by
  unfold rhsOf
  exact pair_right (lpOf s) (Host.negf (lqOf (ohOf t) cw)) J k

end Cert.KernelIdeal.Head

end
-- ==== Proof.Bridge.lean ====
/-
  The two totals are equal. The kernel's arrays as the region finds them are the row-difference column, [p | q] and
  [logp | −logq] of the arguments; read by coordinates they meet the hypotheses of the pair identity with the clipped
  one-hot entries as the positive reals and the class weights as the weight vector. So the kernel's summand is the
  reference's at every pair of rows, and the double sums agree.
-/
import proofs.«144478_j53927609369071_2_alg».proof.Proof.KerTail
import proofs.«144478_j53927609369071_2_alg».proof.Proof.KerHead
import proofs.«144478_j53927609369071_2_alg».proof.Proof.KerHeadValue
import proofs.«144478_j53927609369071_2_alg».proof.Proof.RefValue

noncomputable section

open Idealize.ShloMosaic Idealize.ShloMosaic.TcCoe Idealize.SL.Sem

namespace Cert.KernelIdeal.Bridge

open Cert.KernelIdeal Cert.KernelIdeal.Gen Cert.KernelIdeal.Blocks Cert.KernelIdeal.Head Cert.PairKL
open Idealize.ShloMosaic.ValueIdx

variable (m : (ℓ : Loc nD τ sig) → Buf (Elt Ideal) ℓ)

/-- THE TOTALS AGREE: the kernel's summand over its arrays is, pair by pair, the reference's over the head arrays of the
    same arguments. -/
theorem total_bridge (c : Dev nD) :
    (∑ I : Fin 8192, ∑ J : Fin 8192, kerTerm (rsdA m c) (lhsA m c) (rhsA m c) I J)
      = ∑ I : Fin 8192, ∑ J : Fin 8192, refTerm
          (fun I k => ppOf (m ((c : Thread nD τ).loc main_arg0)) (ix2 I k))
          (fun I k => lpOf (m ((c : Thread nD τ).loc main_arg0)) (ix2 I k))
          (fun I k => qOf (ohOf (m ((c : Thread nD τ).loc main_arg1))) (m ((c : Thread nD τ).loc main_arg2)) (ix2 I k))
          (fun I k => lqOf (ohOf (m ((c : Thread nD τ).loc main_arg1))) (m ((c : Thread nD τ).loc main_arg2)) (ix2 I k)) I J := by
  generalize hs : m ((c : Thread nD τ).loc main_arg0) = s
  generalize ht : m ((c : Thread nD τ).loc main_arg1) = t
  generalize hw : m ((c : Thread nD τ).loc main_arg2) = cw
  have hq : (fun (I : Fin 8192) (k : Fin 128) => qOf (ohOf t) cw (ix2 I k))
      = fun I k => clOf (ohOf t) (ix2 I k) * cw (ix1 k) := funext fun I => funext fun k => qOf_apply _ _ I k
  have hlq : (fun (I : Fin 8192) (k : Fin 128) => lqOf (ohOf t) cw (ix2 I k))
      = fun I k => Ideal.log (clOf (ohOf t) (ix2 I k) * cw (ix1 k)) :=
    funext fun I => funext fun k => by rw [lqOf_apply, qOf_apply]
  have eR : (V (F := Ideal) m c main_v14 : S8192x1.Idx → EReal) = rsdOf s t cw := by rw [V_rsd m c, hs, ht, hw]
  have eL : (V (F := Ideal) m c main_v16 : S8192x256.Idx → EReal) = lhsOf s t cw := by rw [V_lhs m c, hs, ht, hw]
  have eH : (V (F := Ideal) m c main_v19 : S8192x256.Idx → EReal) = rhsOf s t cw := by rw [V_rhs m c, hs, ht, hw]
  refine Finset.sum_congr rfl fun I _ => Finset.sum_congr rfl fun J _ => ?_
  rw [hq, hlq]
  refine kerTerm_eq_refTerm (fun I k => ppOf s (ix2 I k)) (fun I k => lpOf s (ix2 I k)) (fun I k => clOf (ohOf t) (ix2 I k))
    (fun k => cw (ix1 k)) (fun I k => clOf_pos _ _) (rsdA m c) (lhsA m c) (rhsA m c) ?_ ?_ ?_ ?_ ?_ I J
  · intro I
    refine ((congrFun eR (ix2 I (0 : Fin 1))).trans (rsd_apply s t cw I)).trans ?_
    rw [hq, hlq]
  · intro I k
    exact (congrFun eL (ix2 I (Fin.castAdd 128 k : Fin 256))).trans (lhs_left s t cw I k)
  · intro I k
    exact ((congrFun eL (ix2 I (Fin.natAdd 128 k : Fin 256))).trans (lhs_right s t cw I k)).trans (qOf_apply _ _ I k)
  · intro J k
    exact (congrFun eH (ix2 J (Fin.castAdd 128 k : Fin 256))).trans (rhs_left s t cw J k)
  · intro J k
    refine ((congrFun eH (ix2 J (Fin.natAdd 128 k : Fin 256))).trans (rhs_right s t cw J k)).trans ?_
    rw [lqOf_apply, qOf_apply]

end Cert.KernelIdeal.Bridge

end
-- ==== Proof.lean ====
/-
  The certificate. The kernel computes, tile by tile, the sum over all pairs of rows (I, J) of
  |(Σ_c p_I logp_I − Σ_c q_I logq_I) − Σ_{k < 256} [p | q]_I,k · [logp | −logq]_J,k|, the reference the sum of
  |(Σ_c p_I logp_I − Σ_c p_I logp_J) − (Σ_c q_I logq_I − Σ_c q_I logq_J)|; both add the same constant and divide by
  the same constant. Over the extended reals the two summands are equal at every pair because q is a positive real
  (a clipped one-hot entry) times the class weight: if every weight is a non-negative real all the sums over the
  classes are reals and the identity is the real one (0 · −∞ = 0 where a weight is zero); otherwise both sums over
  the classes are +∞ and both absolute values are +∞. Nothing is assumed of the inputs for this: the precondition
  is not used. The three frames are the generated frame runs (the reference's from its run); the ideal pass rewrote
  nothing, so the idealization claim is trivial.
-/
import proofs.«144478_j53927609369071_2_alg».proof.Defs
import proofs.«144478_j53927609369071_2_alg».proof.Proof.Gen.Kernel
import proofs.«144478_j53927609369071_2_alg».proof.Proof.Gen.Kernel.Frame
import proofs.«144478_j53927609369071_2_alg».proof.Proof.Gen.KernelIdeal
import proofs.«144478_j53927609369071_2_alg».proof.Proof.Gen.KernelIdeal.Frame
import proofs.«144478_j53927609369071_2_alg».proof.Proof.Gen.ReferenceIdeal
import proofs.«144478_j53927609369071_2_alg».proof.Proof.Gen.Pre_finite_inputs
import proofs.«144478_j53927609369071_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.PairKL.Ref.run m ρ)

theorem preserves : Cert.preserves_Kernel_KernelIdeal := trivial

/-- Both programs end at the loss of the same double sum over the pairs of rows. -/
theorem algebraic : Cert.algebraic_KernelIdeal_ReferenceIdeal := by
  intro m ρ m' ρ' _ hagree
  refine ⟨fun c => fun _ => Cert.PairKL.lossOf (∑ I : Fin 8192, ∑ J : Fin 8192,
      Cert.PairKL.kerTerm (Cert.KernelIdeal.Blocks.rsdA m c) (Cert.KernelIdeal.Blocks.lhsA m c) (Cert.KernelIdeal.Blocks.rhsA m c) I J),
    Cert.KernelIdeal.Tail.run m ρ, ?_⟩
  refine (θ_run Cert.ReferenceIdeal.defs _ _).mono (fun _ h c => ⟨(h c).1.trans ?_, (h c).2⟩) (Cert.PairKL.Ref.run m' ρ')
  rw [Cert.PairKL.Ref.tailVal_eq, (hagree c).1, (hagree c).2.1, (hagree c).2.2]
  exact congrArg (fun (t : EReal) (_ : Cert.ReferenceIdeal.S_.Idx) => Cert.PairKL.lossOf t) (Cert.KernelIdeal.Bridge.total_bridge m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
